-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S128x256 : Shape := ⟨2, ![128, 256]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S128x256x1024 .f32) (main_arg1 : FVec F S128x256 .f32) (main_arg2 : FVec F S128x256x1024 .f32) (main_arg3 : FVec F S128x256 .f32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256x1024 .f32 := Host.absf main_arg2
  let main_cst_2 : FVec F S_ .f32 := constant S_ .f32 0x7F800000#32
  let main_v10 : FVec F S128x256x1024 .f32 := broadcastInDim S128x256x1024 ![] bcast_S_S128x256x1024 main_cst_2
  let main_v11 : IVec S128x256x1024 1 := cmpf .olt main_v9 main_v10
  let main_c_3 : IVec S_ 1 := constantI S_ 1 1#1
  let main_v12 : IVec S_ 1 := (fun x v => Host.reduce IntOp.andi x v reducesTo_S128x256x1024_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S128x256x1024 : Shape := ⟨3, ![128, 256, 1024]⟩
abbrev S128x256 : Shape := ⟨2, ![128, 256]⟩
abbrev S128x1x256 : Shape := ⟨3, ![128, 1, 256]⟩
abbrev S128x1x2048 : Shape := ⟨3, ![128, 1, 2048]⟩
abbrev S128x256x256 : Shape := ⟨3, ![128, 256, 256]⟩
abbrev S2x256x1024 : Shape := ⟨3, ![2, 256, 1024]⟩
abbrev S2x1x256 : Shape := ⟨3, ![2, 1, 256]⟩
abbrev S2x1x2048 : Shape := ⟨3, ![2, 1, 2048]⟩
abbrev S2x256x256 : Shape := ⟨3, ![2, 256, 256]⟩
abbrev S2x256 : Shape := ⟨2, ![2, 256]⟩
abbrev S2x256x1 : Shape := ⟨3, ![2, 256, 1]⟩
abbrev S2x1024 : Shape := ⟨2, ![2, 1024]⟩
abbrev S2x2048 : Shape := ⟨2, ![2, 2048]⟩
abbrev S128x2048 : Shape := ⟨2, ![128, 2048]⟩

abbrev nBuf : Space → Nat
  | .hbm => 13
  | .vmem => 20
  | .smem => 0
  | _ => 0

abbrev bufTy : (tb : Table) → Fin (tcTables nBuf tb) → BufTy
  | .hbm, ⟨0, _⟩ => ⟨S128x256x1024, .f32⟩
  | .hbm, ⟨1, _⟩ => ⟨S128x256, .f32⟩
  | .hbm, ⟨2, _⟩ => ⟨S128x256x1024, .f32⟩
  | .hbm, ⟨3, _⟩ => ⟨S128x256, .f32⟩
  | .hbm, ⟨4, _⟩ => ⟨S128x1x256, .f32⟩
  | .hbm, ⟨5, _⟩ => ⟨S128x1x256, .f32⟩
  | .hbm, ⟨6, _⟩ => ⟨S128x1x2048, .f32⟩
  | .hbm, ⟨7, _⟩ => ⟨S128x256x256, .f32⟩
  | .hbm, ⟨8, _⟩ => ⟨S128x256x256, .f32⟩
  | .hbm, ⟨9, _⟩ => ⟨S128x256x256, .f32⟩
  | .hbm, ⟨10, _⟩ => ⟨S128x1x256, .f32⟩
  | .hbm, ⟨11, _⟩ => ⟨S128x1x256, .f32⟩
  | .hbm, ⟨12, _⟩ => ⟨S128x2048, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x1x256, .f32⟩
  | .local _ .vmem, ⟨5, _⟩ => ⟨S2x1x256, .f32⟩
  | .local _ .vmem, ⟨6, _⟩ => ⟨S2x1x256, .f32⟩
  | .local _ .vmem, ⟨7, _⟩ => ⟨S2x1x256, .f32⟩
  | .local _ .vmem, ⟨8, _⟩ => ⟨S2x1x2048, .f32⟩
  | .local _ .vmem, ⟨9, _⟩ => ⟨S2x1x2048, .f32⟩
  | .local _ .vmem, ⟨10, _⟩ => ⟨S2x256x256, .f32⟩
  | .local _ .vmem, ⟨11, _⟩ => ⟨S2x256x256, .f32⟩
  | .local _ .vmem, ⟨12, _⟩ => ⟨S2x256x256, .f32⟩
  | .local _ .vmem, ⟨13, _⟩ => ⟨S2x256x256, .f32⟩
  | .local _ .vmem, ⟨14, _⟩ => ⟨S2x256x256, .f32⟩
  | .local _ .vmem, ⟨15, _⟩ => ⟨S2x256x256, .f32⟩
  | .local _ .vmem, ⟨16, _⟩ => ⟨S2x1x256, .f32⟩
  | .local _ .vmem, ⟨17, _⟩ => ⟨S2x1x256, .f32⟩
  | .local _ .vmem, ⟨18, _⟩ => ⟨S2x1x256, .f32⟩
  | .local _ .vmem, ⟨19, _⟩ => ⟨S2x1x256, .f32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S128x256_S128x1x256_0_2 : S128x256.BroadcastsInDim S128x1x256 (![0, 2] : Fin 2 → Fin S128x1x256.rank)
  inb_S2x1x256_S2x1x256_0_0_0 : ∀ a, (![0, 0, 0] : Fin 3 → Nat) a + S2x1x256.size a ≤ S2x1x256.size a
  h_S2x1x256 : 0 < S2x1x256.numel
  shapeCasts_S2x1x256_S2x256 : S2x1x256.ShapeCasts S2x256
  inb_S2x256x1024_S2x256x1024_0_0_0 : ∀ a, (![0, 0, 0] : Fin 3 → Nat) a + S2x256x1024.size a ≤ S2x256x1024.size a
  h_S2x256x1024 : 0 < S2x256x1024.numel
  shapeCasts_S2x256_S2x256x1 : S2x256.ShapeCasts S2x256x1
  broadcasts_S2x256x1_S2x256x1024 : S2x256x1.Broadcasts S2x256x1024
  bitsLt_bf16_f32 : FTy.bits .bf16 < FTy.bits .f32
  reduces_S2x256x1024_S2x256 : S2x256x1024.Reduces [2] S2x256
  shapeCasts_S2x256_S2x1x256 : S2x256.ShapeCasts S2x1x256
  broadcasts_S2x256x1_S2x256x256 : S2x256x1.Broadcasts S2x256x256
  broadcasts_S2x1x256_S2x256x256 : S2x1x256.Broadcasts S2x256x256
  reduces_S2x256x256_S2x256 : S2x256x256.Reduces [2] S2x256
  reduces_S2x256x256_S2x256_2 : S2x256x256.Reduces [1] S2x256
  reduces_S2x256x1024_S2x1024 : S2x256x1024.Reduces [1] S2x1024
  concatenates_S2x1024_S2x1024_S2x2048_d1 : Shape.Concatenates [S2x1024, S2x1024] S2x2048 1
  inb_S2x1x2048_S2x1x2048_0_0_0 : ∀ a, (![0, 0, 0] : Fin 3 → Nat) a + S2x1x2048.size a ≤ S2x1x2048.size a
  h_S2x1x2048 : 0 < S2x1x2048.numel
  shapeCasts_S2x1x2048_S2x2048 : S2x1x2048.ShapeCasts S2x2048
  shapeCasts_S2x2048_S2x1x2048 : S2x2048.ShapeCasts S2x1x2048
  inb_S2x256x256_S2x256x256_0_0_0 : ∀ a, (![0, 0, 0] : Fin 3 → Nat) a + S2x256x256.size a ≤ S2x256x256.size a
  h_S2x256x256 : 0 < S2x256x256.numel
  transposes_S2x256x256_p0_2_1_S2x256x256 : S2x256x256.Transposes [0, 2, 1] S2x256x256
  shapeCasts_S128x1x2048_S128x2048 : S128x1x2048.ShapeCasts S128x2048
  dot_S2x256x1024_S2x256x1024_S2x256x256_2_2_1_1_0_0_wf : DotDims.WF S2x256x1024 S2x256x1024 S2x256x256 [2] [2] [1] [1] [0] [0]
  dot_S2x256x256_S2x256x1024_S2x256x1024_2_1_1_2_0_0_wf : DotDims.WF S2x256x256 S2x256x1024 S2x256x1024 [2] [1] [1] [2] [0] [0]
  dot_S2x256x256_S2x256x1024_S2x256x1024_1_1_2_2_0_0_wf : DotDims.WF S2x256x256 S2x256x1024 S2x256x1024 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1024.size a ≤ S128x256x1024.size a
  hwx0_0 : ∀ i : grid0.Coords, EltTy.bits .f32 = 32 ∨ (Rect.block (s := S128x256x1024) S2x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1024.size a ≤ S128x256x1024.size a
  hwx0_1 : ∀ i : grid0.Coords, EltTy.bits .f32 = 32 ∨ (Rect.block (s := S128x256x1024) S2x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x256.size a ≤ S128x1x256.size a
  hwx0_2 : ∀ i : grid0.Coords, EltTy.bits .f32 = 32 ∨ (Rect.block (s := S128x1x256) S2x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x256.size a ≤ S128x1x256.size a
  hwx0_3 : ∀ i : grid0.Coords, EltTy.bits .f32 = 32 ∨ (Rect.block (s := S128x1x256) S2x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x2048.size a ≤ S128x1x2048.size a
  hwx0_4 : ∀ i : grid0.Coords, EltTy.bits .f32 = 32 ∨ (Rect.block (s := S128x1x2048) S2x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x256.size a ≤ S128x256x256.size a
  hwx0_5 : ∀ i : grid0.Coords, EltTy.bits .f32 = 32 ∨ (Rect.block (s := S128x256x256) S2x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256x256.size a ≤ S128x256x256.size a
  hwx0_6 : ∀ i : grid0.Coords, EltTy.bits .f32 = 32 ∨ (Rect.block (s := S128x256x256) S2x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x256x256.size a ≤ S128x256x256.size a
  hwx0_7 : ∀ i : grid0.Coords, EltTy.bits .f32 = 32 ∨ (Rect.block (s := S128x256x256) S2x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x256.size a ≤ S128x1x256.size a
  hwx0_8 : ∀ i : grid0.Coords, EltTy.bits .f32 = 32 ∨ (Rect.block (s := S128x1x256) S2x1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x256.size a ≤ S128x1x256.size a
  hwx0_9 : ∀ i : grid0.Coords, EltTy.bits .f32 = 32 ∨ (Rect.block (s := S128x1x256) S2x1x256.size (cc0_transform_9 i) (hinb0_9 i)).WholeWords (EltTy.packing .f32)

variable [Facts₀]

def dot_S2x256x1024_S2x256x1024_S2x256x256_2_2_1_1_0_0 : DotDims S2x256x1024 S2x256x1024 S2x256x256 where
  lhsContracting := [2]
  rhsContracting := [2]
  lhsNonContracting := [1]
  rhsNonContracting := [1]
  lhsBatch := [0]
  rhsBatch := [0]
  wf := dot_S2x256x1024_S2x256x1024_S2x256x256_2_2_1_1_0_0_wf
def dot_S2x256x256_S2x256x1024_S2x256x1024_2_1_1_2_0_0 : DotDims S2x256x256 S2x256x1024 S2x256x1024 where
  lhsContracting := [2]
  rhsContracting := [1]
  lhsNonContracting := [1]
  rhsNonContracting := [2]
  lhsBatch := [0]
  rhsBatch := [0]
  wf := dot_S2x256x256_S2x256x1024_S2x256x1024_2_1_1_2_0_0_wf
def dot_S2x256x256_S2x256x1024_S2x256x1024_1_1_2_2_0_0 : DotDims S2x256x256 S2x256x1024 S2x256x1024 where
  lhsContracting := [1]
  rhsContracting := [1]
  lhsNonContracting := [2]
  rhsNonContracting := [2]
  lhsBatch := [0]
  rhsBatch := [0]
  wf := dot_S2x256x256_S2x256x1024_S2x256x1024_1_1_2_2_0_0_wf

abbrev win0_0 : Pipeline.Window sig grid0 :=
  Pipeline.Window.ofSpec (Memref.whole main_arg0) S2x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2x1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S2x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S2x256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_4) S2x1x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_5) S2x1x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x256x1024 : Shape := ⟨3, ![128, 256, 1024]⟩
abbrev S128x256 : Shape := ⟨2, ![128, 256]⟩
abbrev S_ : Shape := ⟨0, ![]⟩
abbrev S128x256x1 : Shape := ⟨3, ![128, 256, 1]⟩
abbrev S128x256x256 : Shape := ⟨3, ![128, 256, 256]⟩
abbrev S128x1x256 : Shape := ⟨3, ![128, 1, 256]⟩
abbrev S128x1024 : Shape := ⟨2, ![128, 1024]⟩
abbrev S128x2048 : Shape := ⟨2, ![128, 2048]⟩

abbrev nBuf : Space → Nat
  | .hbm => 141
  | .vmem => 0
  | .smem => 0
  | _ => 0

abbrev hbmTy0_0 (i : Nat) : BufTy := match i % 128 with
  | 0 => ⟨S128x256x1024, .f32⟩
  | 1 => ⟨S128x256, .f32⟩
  | 2 => ⟨S128x256x1024, .f32⟩
  | 3 => ⟨S128x256, .f32⟩
  | 4 => ⟨S_, .f32⟩
  | 5 => ⟨S128x256, .f32⟩
  | 6 => ⟨S128x256, .f32⟩
  | 7 => ⟨S_, .f32⟩
  | 8 => ⟨S128x256, .f32⟩
  | 9 => ⟨S128x256, .f32⟩
  | 10 => ⟨S_, .f32⟩
  | 11 => ⟨S128x256, .f32⟩
  | 12 => ⟨S128x256, .f32⟩
  | 13 => ⟨S_, .f32⟩
  | 14 => ⟨S128x256, .f32⟩
  | 15 => ⟨S128x256, .f32⟩
  | 16 => ⟨S_, .f32⟩
  | 17 => ⟨S128x256, .f32⟩
  | 18 => ⟨S128x256, .f32⟩
  | 19 => ⟨S_, .f32⟩
  | 20 => ⟨S128x256, .f32⟩
  | 21 => ⟨S128x256, .f32⟩
  | 22 => ⟨S_, .f32⟩
  | 23 => ⟨S128x256, .f32⟩
  | 24 => ⟨S128x256, .f32⟩
  | 25 => ⟨S128x256x1, .f32⟩
  | 26 => ⟨S128x256x1024, .f32⟩
  | 27 => ⟨S128x256x1024, .f32⟩
  | 28 => ⟨S128x256x1, .f32⟩
  | 29 => ⟨S128x256x1024, .f32⟩
  | 30 => ⟨S128x256x1024, .f32⟩
  | 31 => ⟨S128x256x256, .f32⟩
  | 32 => ⟨S128x256x1024, .f32⟩
  | 33 => ⟨S_, .f32⟩
  | 34 => ⟨S128x256, .f32⟩
  | 35 => ⟨S_, .f32⟩
  | 36 => ⟨S128x256, .f32⟩
  | 37 => ⟨S128x256, .f32⟩
  | 38 => ⟨S128x256, .f32⟩
  | 39 => ⟨S128x256x1024, .f32⟩
  | 40 => ⟨S_, .f32⟩
  | 41 => ⟨S128x256, .f32⟩
  | 42 => ⟨S_, .f32⟩
  | 43 => ⟨S128x256, .f32⟩
  | 44 => ⟨S128x256, .f32⟩
  | 45 => ⟨S128x256, .f32⟩
  | 46 => ⟨S128x256x1, .f32⟩
  | 47 => ⟨S128x1x256, .f32⟩
  | 48 => ⟨S128x256x256, .f32⟩
  | 49 => ⟨S128x256x256, .f32⟩
  | 50 => ⟨S128x256x256, .f32⟩
  | 51 => ⟨S128x256x256, .f32⟩
  | 52 => ⟨S128x1x256, .f32⟩
  | 53 => ⟨S128x256x256, .f32⟩
  | 54 => ⟨S128x256x256, .f32⟩
  | 55 => ⟨S_, .f32⟩
  | 56 => ⟨S128x256, .f32⟩
  | 57 => ⟨S_, .f32⟩
  | 58 => ⟨S128x256, .f32⟩
  | 59 => ⟨S128x256, .f32⟩
  | 60 => ⟨S128x256x1, .f32⟩
  | 61 => ⟨S128x256x256, .f32⟩
  | 62 => ⟨S128x256x256, .f32⟩
  | 63 => ⟨S128x256x256, .f32⟩
  | 64 => ⟨S_, .f32⟩
  | 65 => ⟨S128x256, .f32⟩
  | 66 => ⟨S128x256x1, .f32⟩
  | 67 => ⟨S128x256x256, .f32⟩
  | 68 => ⟨S128x256x256, .f32⟩
  | 69 => ⟨S128x256x1024, .f32⟩
  | 70 => ⟨S128x256x1, .f32⟩
  | 71 => ⟨S128x256x1024, .f32⟩
  | 72 => ⟨S128x256x1024, .f32⟩
  | 73 => ⟨S128x256x1, .f32⟩
  | 74 => ⟨S128x256x256, .f32⟩
  | 75 => ⟨S128x256x256, .f32⟩
  | 76 => ⟨S_, .f32⟩
  | 77 => ⟨S128x256, .f32⟩
  | 78 => ⟨S_, .f32⟩
  | 79 => ⟨S128x256, .f32⟩
  | 80 => ⟨S128x256, .f32⟩
  | 81 => ⟨S128x1x256, .f32⟩
  | 82 => ⟨S128x256x256, .f32⟩
  | 83 => ⟨S128x256x256, .f32⟩
  | 84 => ⟨S128x256x256, .f32⟩
  | 85 => ⟨S_, .f32⟩
  | 86 => ⟨S128x256, .f32⟩
  | 87 => ⟨S128x1x256, .f32⟩
  | 88 => ⟨S128x256x256, .f32⟩
  | 89 => ⟨S128x256x256, .f32⟩
  | 90 => ⟨S128x256x1024, .f32⟩
  | 91 => ⟨S128x256x1, .f32⟩
  | 92 => ⟨S128x256x1024, .f32⟩
  | 93 => ⟨S128x256x1024, .f32⟩
  | 94 => ⟨S128x1x256, .f32⟩
  | 95 => ⟨S128x256x256, .f32⟩
  | 96 => ⟨S128x256x256, .f32⟩
  | 97 => ⟨S_, .f32⟩
  | 98 => ⟨S128x256, .f32⟩
  | 99 => ⟨S_, .f32⟩
  | 100 => ⟨S128x256, .f32⟩
  | 101 => ⟨S128x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S_, .f32⟩
  | 108 => ⟨S128x256, .f32⟩
  | 109 => ⟨S128x256, .f32⟩
  | 110 => ⟨S128x256x256, .f32⟩
  | 111 => ⟨S128x1x256, .f32⟩
  | 112 => ⟨S128x256x256, .f32⟩
  | 113 => ⟨S128x256x256, .f32⟩
  | 114 => ⟨S_, .f32⟩
  | 115 => ⟨S128x256, .f32⟩
  | 116 => ⟨S_, .f32⟩
  | 117 => ⟨S128x256, .f32⟩
  | 118 => ⟨S128x256, .f32⟩
  | 119 => ⟨S128x256, .f32⟩
  | 120 => ⟨S128x256, .f32⟩
  | 121 => ⟨S_, .f32⟩
  | 122 => ⟨S128x256, .f32⟩
  | 123 => ⟨S128x256, .f32⟩
  | 124 => ⟨S_, .f32⟩
  | 125 => ⟨S128x256, .f32⟩
  | 126 => ⟨S128x256, .f32⟩
  | 127 => ⟨S128x256x1, .f32⟩
  | _ => ⟨S128x256x1024, .f32⟩

abbrev hbmTy0_1 (i : Nat) : BufTy := match i % 128 with
  | 0 => ⟨S128x256x1024, .f32⟩
  | 1 => ⟨S128x256x1024, .f32⟩
  | 2 => ⟨S128x256x1, .f32⟩
  | 3 => ⟨S128x256x1024, .f32⟩
  | 4 => ⟨S128x256x1024, .f32⟩
  | 5 => ⟨S_, .f32⟩
  | 6 => ⟨S128x1024, .f32⟩
  | 7 => ⟨S_, .f32⟩
  | 8 => ⟨S128x1024, .f32⟩
  | 9 => ⟨S128x2048, .f32⟩
  | 10 => ⟨S128x256x256, .f32⟩
  | 11 => ⟨S128x1x256, .f32⟩
  | 12 => ⟨S128x1x256, .f32⟩
  | _ => ⟨S128x256x1024, .f32⟩

abbrev hbmTy (i : Nat) : BufTy := match i / 128 with
  | 0 => hbmTy0_0 i
  | 1 => hbmTy0_1 i
  | _ => ⟨S128x256x1024, .f32⟩

abbrev bufTy : (tb : Table) → Fin (tcTables nBuf tb) → BufTy
  | .hbm, ⟨i, _⟩ => hbmTy i
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_15 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_v82 : Ref sig .tc := ⟨.hbm, 106, rfl⟩
abbrev main_cst_19 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_22 : Ref sig .tc := ⟨.hbm, 121, rfl⟩
abbrev main_v94 : Ref sig .tc := ⟨.hbm, 122, rfl⟩
abbrev main_v95 : Ref sig .tc := ⟨.hbm, 123, rfl⟩
abbrev main_cst_23 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_24 : Ref sig .tc := ⟨.hbm, 133, rfl⟩
abbrev main_v104 : Ref sig .tc := ⟨.hbm, 134, rfl⟩
abbrev main_cst_25 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]

class Facts₀ : Prop where
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x1024_0_1_2 : S128x256x1.BroadcastsInDim S128x256x1024 (![0, 1, 2] : Fin 3 → Fin S128x256x1024.rank)
  reducesTo_S128x256x1024_S128x256_d2 : S128x256x1024.ReducesTo [2] S128x256
  h_S_ : 0 < S_.numel
  bcast_S128x256_S128x1x256_0_2 : S128x256.BroadcastsInDim S128x1x256 (![0, 2] : Fin 2 → Fin S128x1x256.rank)
  bcast_S128x256x1_S128x256x256_0_1_2 : S128x256x1.BroadcastsInDim S128x256x256 (![0, 1, 2] : Fin 3 → Fin S128x256x256.rank)
  bcast_S128x1x256_S128x256x256_0_1_2 : S128x1x256.BroadcastsInDim S128x256x256 (![0, 1, 2] : Fin 3 → Fin S128x256x256.rank)
  reducesTo_S128x256x256_S128x256_d2 : S128x256x256.ReducesTo [2] S128x256
  reducesTo_S128x256x256_S128x256_d1 : S128x256x256.ReducesTo [1] S128x256
  transposes_S128x256x256_S128x256x256_0_2_1 : S128x256x256.Transposes [0, 2, 1] S128x256x256
  reducesTo_S128x256x1024_S128x1024_d1 : S128x256x1024.ReducesTo [1] S128x1024
  concatenates_S128x1024_S128x1024_S128x2048_d1 : Shape.Concatenates [S128x1024, S128x1024] S128x2048 1
  dot_S128x256x1024_S128x256x1024_S128x256x256_2_2_1_1_0_0_wf : DotDims.WF S128x256x1024 S128x256x1024 S128x256x256 [2] [2] [1] [1] [0] [0]
  dot_S128x256x256_S128x256x1024_S128x256x1024_2_1_1_2_0_0_wf : DotDims.WF S128x256x256 S128x256x1024 S128x256x1024 [2] [1] [1] [2] [0] [0]
  dot_S128x256x256_S128x256x1024_S128x256x1024_1_1_2_2_0_0_wf : DotDims.WF S128x256x256 S128x256x1024 S128x256x1024 [1] [1] [2] [2] [0] [0]

variable [Facts₀]

def dot_S128x256x1024_S128x256x1024_S128x256x256_2_2_1_1_0_0 : DotDims S128x256x1024 S128x256x1024 S128x256x256 where
  lhsContracting := [2]
  rhsContracting := [2]
  lhsNonContracting := [1]
  rhsNonContracting := [1]
  lhsBatch := [0]
  rhsBatch := [0]
  wf := dot_S128x256x1024_S128x256x1024_S128x256x256_2_2_1_1_0_0_wf
def dot_S128x256x256_S128x256x1024_S128x256x1024_2_1_1_2_0_0 : DotDims S128x256x256 S128x256x1024 S128x256x1024 where
  lhsContracting := [2]
  rhsContracting := [1]
  lhsNonContracting := [1]
  rhsNonContracting := [2]
  lhsBatch := [0]
  rhsBatch := [0]
  wf := dot_S128x256x256_S128x256x1024_S128x256x1024_2_1_1_2_0_0_wf
def dot_S128x256x256_S128x256x1024_S128x256x1024_1_1_2_2_0_0 : DotDims S128x256x256 S128x256x1024 S128x256x1024 where
  lhsContracting := [1]
  rhsContracting := [1]
  lhsNonContracting := [2]
  rhsNonContracting := [2]
  lhsBatch := [0]
  rhsBatch := [0]
  wf := dot_S128x256x256_S128x256x1024_S128x256x1024_1_1_2_2_0_0_wf

class Facts : Prop extends Facts₀ where

variable [Facts]
-- ==== Proof.Spec.lean ====
/-
  The mathematics both programs compute, for ONE example of the batch.

  An example has an answer sequence `X` and a key sequence `Y` (256 tokens of 1024 features each) and two padding masks
  `ma`, `mk` over the tokens. With the masked sequences `A a e = X a e · ma a` and `K k e = Y k e · mk k`:
  * the score matrix `Z a k = ∑ e, A a e · K k e`;
  * the additive masks `mai a = (1 − ma a) · (−10⁴)`, `mki k = (1 − mk k) · (−10⁴)`;
  * the two masked softmaxes of the scores, `SK` along the keys (each row `a`) and `SA` along the answers (each
    column `k`), each in the max-shifted form exp (s − max) / ∑ exp (s − max);
  * the cosine scores `C a k = Z a k / (‖A a‖ · ‖K k‖)` with the norms floored at the square root of 10⁻⁸ (the literal);
  * the gates `bk a = σ(5 · max_k (C a k + mki k))` and `ba k = σ(5 · max_a (C a k + mai a))`;
  * the attended, masked and gated sequences `V a e = (∑ k, SK a k · K k e) · ma a · bk a` and
    `U k e = (∑ a, SA a k · A a e) · mk k · ba k`, max-pooled over their tokens into `v e`, `u e`, and joined: `f = u ++ v`.
  Every operation is the exact one on the extended reals; a maximum over a token axis is the fold of `max` from −∞
  (the literal's value). The whole-array functions `g…` at the end apply this to example `i 0` of the batch.
-/
import Idealize.ShloMosaic.PureOps.Ideal
import Idealize.ShloMosaic.Lib.ValueIdx

noncomputable section

namespace CoAttn

open Idealize.ShloMosaic Idealize.ShloMosaic.ValueIdx

/-- The literals: 1, −10⁴, the norm floor 10⁻⁸ (its binary value), −∞ and 5. -/
abbrev c1 : EReal := Ideal.ofBits .f32 0x3F800000#32
abbrev cNeg : EReal := Ideal.ofBits .f32 0xC61C4000#32
abbrev cEps : EReal := Ideal.ofBits .f32 0x322BCC77#32
abbrev cBot : EReal := Ideal.ofBits .f32 0xFF800000#32
abbrev c5 : EReal := Ideal.ofBits .f32 0x40A00000#32

/-- Example `b` of a rank-3 array, as a matrix. -/
def sl3 {n0 n1 n2 : Nat} (x : (⟨3, ![n0, n1, n2]⟩ : Shape).Idx → EReal) (b : Fin n0) : Fin n1 → Fin n2 → EReal :=
  fun a e => x (ix3 b a e)
/-- Example `b` of a rank-2 array, as a vector. -/
def sl2 {n0 n1 : Nat} (x : (⟨2, ![n0, n1]⟩ : Shape).Idx → EReal) (b : Fin n0) : Fin n1 → EReal :=
  fun a => x (ix2 b a)
/-- Example `b` of an array with a unit middle axis, as a vector. -/
def slm {n0 n1 : Nat} (x : (⟨3, ![n0, 1, n1]⟩ : Shape).Idx → EReal) (b : Fin n0) : Fin n1 → EReal :=
  fun a => x (ix3 b (0 : Fin 1) a)

section
variable (X Y : Fin 256 → Fin 1024 → EReal) (ma mk : Fin 256 → EReal)

/-- The masked answer and key sequences. -/
def A (a : Fin 256) (e : Fin 1024) : EReal := X a e * ma a
def K (k : Fin 256) (e : Fin 1024) : EReal := Y k e * mk k
/-- The additive masks: 0 at a kept token, −10⁴ at a padded one. -/
def mai (a : Fin 256) : EReal := (c1 - ma a) * cNeg
def mki (k : Fin 256) : EReal := (c1 - mk k) * cNeg
/-- The scores. -/
def Z (a k : Fin 256) : EReal := ∑ e : Fin 1024, A X ma a e * K Y mk k e
/-- The floored norms. -/
def na (a : Fin 256) : EReal := Ideal.sqrt (max (∑ e : Fin 1024, A X ma a e * A X ma a e) cEps)
def nk (k : Fin 256) : EReal := Ideal.sqrt (max (∑ e : Fin 1024, K Y mk k e * K Y mk k e) cEps)
/-- The cosine scores. -/
def C (a k : Fin 256) : EReal := Ideal.div (Z X Y ma mk a k) (na X ma a * nk Y mk k)
/-- The softmax along the keys. -/
def P (a k : Fin 256) : EReal := Z X Y ma mk a k + mki mk k
def mP (a : Fin 256) : EReal := max cBot ((Finset.univ : Finset (Fin 256)).fold max cBot (fun k => P X Y ma mk a k))
def EP (a k : Fin 256) : EReal := Ideal.exp (P X Y ma mk a k - mP X Y ma mk a)
def SK (a k : Fin 256) : EReal := Ideal.div (EP X Y ma mk a k) (∑ k' : Fin 256, EP X Y ma mk a k')
/-- The softmax along the answers. -/
def Q (a k : Fin 256) : EReal := Z X Y ma mk a k + mai ma a
def mQ (k : Fin 256) : EReal := max cBot ((Finset.univ : Finset (Fin 256)).fold max cBot (fun a => Q X Y ma mk a k))
def EQ (a k : Fin 256) : EReal := Ideal.exp (Q X Y ma mk a k - mQ X Y ma mk k)
def SA (a k : Fin 256) : EReal := Ideal.div (EQ X Y ma mk a k) (∑ a' : Fin 256, EQ X Y ma mk a' k)
/-- The gates. -/
def bk (a : Fin 256) : EReal :=
  Ideal.logistic (c5 * (Finset.univ : Finset (Fin 256)).fold max cBot (fun k => C X Y ma mk a k + mki mk k))
def ba (k : Fin 256) : EReal :=
  Ideal.logistic (c5 * (Finset.univ : Finset (Fin 256)).fold max cBot (fun a => C X Y ma mk a k + mai ma a))
/-- The attended, masked, gated sequences and their pooled maxima. -/
def V (a : Fin 256) (e : Fin 1024) : EReal := ((∑ k : Fin 256, SK X Y ma mk a k * K Y mk k e) * ma a) * bk X Y ma mk a
def U (k : Fin 256) (e : Fin 1024) : EReal := ((∑ a : Fin 256, SA X Y ma mk a k * A X ma a e) * mk k) * ba X Y ma mk k
def v (e : Fin 1024) : EReal := (Finset.univ : Finset (Fin 256)).fold max cBot (fun a => V X Y ma mk a e)
def u (e : Fin 1024) : EReal := (Finset.univ : Finset (Fin 256)).fold max cBot (fun k => U X Y ma mk k e)
/-- The joined feature vector: `u` then `v`. -/
def f (j : Fin 2048) : EReal :=
  if h : j.val < 1024 then u X Y ma mk ⟨j.val, h⟩ else v X Y ma mk ⟨j.val - 1024, by have := j.isLt; omega⟩
end

/-! ## The six results as whole arrays -/

section
variable (ans key : (⟨3, ![128, 256, 1024]⟩ : Shape).Idx → EReal) (mans mkey : (⟨2, ![128, 256]⟩ : Shape).Idx → EReal)

def gF : (⟨2, ![128, 2048]⟩ : Shape).Idx → EReal := fun i =>
  f (sl3 ans (i 0)) (sl3 key (i 0)) (sl2 mans (i 0)) (sl2 mkey (i 0)) (i 1)
def gZ : (⟨3, ![128, 256, 256]⟩ : Shape).Idx → EReal := fun i =>
  Z (sl3 ans (i 0)) (sl3 key (i 0)) (sl2 mans (i 0)) (sl2 mkey (i 0)) (i 1) (i 2)
def gSA : (⟨3, ![128, 256, 256]⟩ : Shape).Idx → EReal := fun i =>
  SA (sl3 ans (i 0)) (sl3 key (i 0)) (sl2 mans (i 0)) (sl2 mkey (i 0)) (i 1) (i 2)
def gSKT : (⟨3, ![128, 256, 256]⟩ : Shape).Idx → EReal := fun i =>
  SK (sl3 ans (i 0)) (sl3 key (i 0)) (sl2 mans (i 0)) (sl2 mkey (i 0)) (i 2) (i 1)
def gBa : (⟨3, ![128, 1, 256]⟩ : Shape).Idx → EReal := fun i =>
  ba (sl3 ans (i 0)) (sl3 key (i 0)) (sl2 mans (i 0)) (sl2 mkey (i 0)) (i 2)
def gBk : (⟨3, ![128, 1, 256]⟩ : Shape).Idx → EReal := fun i =>
  bk (sl3 ans (i 0)) (sl3 key (i 0)) (sl2 mans (i 0)) (sl2 mkey (i 0)) (i 2)
end

end CoAttn

end
-- ==== Proof.BlocksGeom.lean ====
/-
  Where the blocks sit. The grid has 64 points; at point t every window's block is examples 2t and 2t + 1 of its array, whole
  along the other two axes. So entry (b', p, q) of a block is entry (2t + b', p, q) of the array, the two examples of a block
  are two examples of the batch, and the 64 blocks of an output array tile it (example b lies in the block of point b / 2).
  The two mask arrays reach the kernel through a host broadcast that gives them a unit middle axis: (b, 0, a) ↦ mask (b, a).
-/
import proofs.«169121_j9311489098350_1_alg».proof.Proof.Gen.KernelIdeal.Frame
import proofs.«169121_j9311489098350_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo CoAttn
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl

/-- Example 2t + b' of the batch, for point t of the grid and b' one of a block's two examples. -/
def ex (t : Fin cfg0.N) (b' : Fin 2) : Fin 128 :=
  ⟨2 * t.val + b'.val, by have h : t.val < 64 := lt_of_lt_of_eq t.isLt N_0; have := b'.isLt; omega⟩

/-- The printed index maps, decided over the grid: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The point whose block holds example b: b / 2. -/
def pt (b : Nat) (hb : b < 128) : Fin cfg0.N := ⟨b / 2, by rw [show cfg0.N = 64 from N_0]; omega⟩

/-! ## A block's entry in its array, and the tiling, output window by output window -/

/-- Output window 4 (the joined features, with a unit middle axis): entry (b', 0, j) of point t's block is entry (2t + b', 0, j) of the array. -/
theorem emb4 (t : Fin cfg0.N) (b' : Fin 2) (q : Fin 2048) :
    ((cfg0.win 4).blk t).view.emb (ix3 b' (0 : Fin 1) q) = ix3 (ex t b') (0 : Fin 1) q := by
  obtain ⟨-, -, -, -, ⟨e0, e1, e2⟩, -, -, -, -, -⟩ := idx_facts t
  funext d; apply Fin.ext
  match d with
  | ⟨0, _⟩ => show win0_4.index t (0 : Fin 3) * 2 + 1 * b'.val = 2 * t.val + b'.val; rw [e0]; omega
  | ⟨1, _⟩ => show win0_4.index t (1 : Fin 3) * 1 + 1 * 0 = 0; rw [e1]
  | ⟨2, _⟩ => show win0_4.index t (2 : Fin 3) * 2048 + 1 * q.val = q.val; rw [e2]; omega

/-- An index of the joined features' array is in point t's block iff each coordinate is in the block's range on its axis. -/
theorem mem_blk4 (t : Fin cfg0.N) (i : S128x1x2048.Idx) :
    i ∈ ((cfg0.win 4).blk t).view.set ↔ ∀ a : Fin 3, win0_4.index t a * S2x1x2048.size a ≤ (i a).val ∧ (i a).val < win0_4.index t a * S2x1x2048.size a + S2x1x2048.size a := by
  show i ∈ ((View.whole main_v2_0).slice (win0_4.rect t)).set ↔ _
  rw [View.set_slice_whole, Rect.mem_set_unit]
  exact Iff.rfl

/-- The blocks of output window 4 tile the joined features' array: example b lies in the block of point b / 2. -/
theorem cover4 (i : S128x1x2048.Idx) : ∃ t : Fin cfg0.N, (cfg0.win 4).flush t = true ∧ i ∈ ((cfg0.win 4).blk t).view.set := by
  have h0 : (i 0).val < 128 := (i 0).isLt
  have h1 : (i 1).val < 1 := (i 1).isLt
  have h2 : (i 2).val < 2048 := (i 2).isLt
  refine ⟨pt (i 0).val h0, flush0_4 _, ?_⟩
  rw [mem_blk4]
  obtain ⟨-, -, -, -, ⟨e0, e1, e2⟩, -, -, -, -, -⟩ := idx_facts (pt (i 0).val h0)
  intro a
  match a with
  | ⟨0, _⟩ => show win0_4.index _ (0 : Fin 3) * 2 ≤ (i 0).val ∧ (i 0).val < win0_4.index _ (0 : Fin 3) * 2 + 2; rw [e0]; show (i 0).val / 2 * 2 ≤ (i 0).val ∧ (i 0).val < (i 0).val / 2 * 2 + 2; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 2048 ≤ (i 2).val ∧ (i 2).val < win0_4.index _ (2 : Fin 3) * 2048 + 2048; rw [e2]; omega

/-- Output window 5 (the scores): entry (b', a, k) of point t's block is entry (2t + b', a, k) of the array. -/
theorem emb5 (t : Fin cfg0.N) (b' : Fin 2) (p q : Fin 256) :
    ((cfg0.win 5).blk t).view.emb (ix3 b' p q) = ix3 (ex t b') p q := by
  obtain ⟨-, -, -, -, -, ⟨e0, e1, e2⟩, -, -, -, -⟩ := idx_facts t
  funext d; apply Fin.ext
  match d with
  | ⟨0, _⟩ => show win0_5.index t (0 : Fin 3) * 2 + 1 * b'.val = 2 * t.val + b'.val; rw [e0]; omega
  | ⟨1, _⟩ => show win0_5.index t (1 : Fin 3) * 256 + 1 * p.val = p.val; rw [e1]; omega
  | ⟨2, _⟩ => show win0_5.index t (2 : Fin 3) * 256 + 1 * q.val = q.val; rw [e2]; omega

/-- An index of the scores' array is in point t's block iff each coordinate is in the block's range on its axis. -/
theorem mem_blk5 (t : Fin cfg0.N) (i : S128x256x256.Idx) :
    i ∈ ((cfg0.win 5).blk t).view.set ↔ ∀ a : Fin 3, win0_5.index t a * S2x256x256.size a ≤ (i a).val ∧ (i a).val < win0_5.index t a * S2x256x256.size a + S2x256x256.size a := by
  show i ∈ ((View.whole main_v2_1).slice (win0_5.rect t)).set ↔ _
  rw [View.set_slice_whole, Rect.mem_set_unit]
  exact Iff.rfl

/-- The blocks of output window 5 tile the scores' array: example b lies in the block of point b / 2. -/
theorem cover5 (i : S128x256x256.Idx) : ∃ t : Fin cfg0.N, (cfg0.win 5).flush t = true ∧ i ∈ ((cfg0.win 5).blk t).view.set := by
  have h0 : (i 0).val < 128 := (i 0).isLt
  have h1 : (i 1).val < 256 := (i 1).isLt
  have h2 : (i 2).val < 256 := (i 2).isLt
  refine ⟨pt (i 0).val h0, flush0_5 _, ?_⟩
  rw [mem_blk5]
  obtain ⟨-, -, -, -, -, ⟨e0, e1, e2⟩, -, -, -, -⟩ := idx_facts (pt (i 0).val h0)
  intro a
  match a with
  | ⟨0, _⟩ => show win0_5.index _ (0 : Fin 3) * 2 ≤ (i 0).val ∧ (i 0).val < win0_5.index _ (0 : Fin 3) * 2 + 2; rw [e0]; show (i 0).val / 2 * 2 ≤ (i 0).val ∧ (i 0).val < (i 0).val / 2 * 2 + 2; omega
  | ⟨1, _⟩ => show win0_5.index _ (1 : Fin 3) * 256 ≤ (i 1).val ∧ (i 1).val < win0_5.index _ (1 : Fin 3) * 256 + 256; rw [e1]; omega
  | ⟨2, _⟩ => show win0_5.index _ (2 : Fin 3) * 256 ≤ (i 2).val ∧ (i 2).val < win0_5.index _ (2 : Fin 3) * 256 + 256; rw [e2]; omega

/-- Output window 6 (the softmax along the answers): entry (b', a, k) of point t's block is entry (2t + b', a, k) of the array. -/
theorem emb6 (t : Fin cfg0.N) (b' : Fin 2) (p q : Fin 256) :
    ((cfg0.win 6).blk t).view.emb (ix3 b' p q) = ix3 (ex t b') p q := by
  obtain ⟨-, -, -, -, -, -, ⟨e0, e1, e2⟩, -, -, -⟩ := idx_facts t
  funext d; apply Fin.ext
  match d with
  | ⟨0, _⟩ => show win0_6.index t (0 : Fin 3) * 2 + 1 * b'.val = 2 * t.val + b'.val; rw [e0]; omega
  | ⟨1, _⟩ => show win0_6.index t (1 : Fin 3) * 256 + 1 * p.val = p.val; rw [e1]; omega
  | ⟨2, _⟩ => show win0_6.index t (2 : Fin 3) * 256 + 1 * q.val = q.val; rw [e2]; omega

/-- An index of the answers' softmax array is in point t's block iff each coordinate is in the block's range on its axis. -/
theorem mem_blk6 (t : Fin cfg0.N) (i : S128x256x256.Idx) :
    i ∈ ((cfg0.win 6).blk t).view.set ↔ ∀ a : Fin 3, win0_6.index t a * S2x256x256.size a ≤ (i a).val ∧ (i a).val < win0_6.index t a * S2x256x256.size a + S2x256x256.size a := by
  show i ∈ ((View.whole main_v2_2).slice (win0_6.rect t)).set ↔ _
  rw [View.set_slice_whole, Rect.mem_set_unit]
  exact Iff.rfl

/-- The blocks of output window 6 tile the answers' softmax array: example b lies in the block of point b / 2. -/
theorem cover6 (i : S128x256x256.Idx) : ∃ t : Fin cfg0.N, (cfg0.win 6).flush t = true ∧ i ∈ ((cfg0.win 6).blk t).view.set := by
  have h0 : (i 0).val < 128 := (i 0).isLt
  have h1 : (i 1).val < 256 := (i 1).isLt
  have h2 : (i 2).val < 256 := (i 2).isLt
  refine ⟨pt (i 0).val h0, flush0_6 _, ?_⟩
  rw [mem_blk6]
  obtain ⟨-, -, -, -, -, -, ⟨e0, e1, e2⟩, -, -, -⟩ := idx_facts (pt (i 0).val h0)
  intro a
  match a with
  | ⟨0, _⟩ => show win0_6.index _ (0 : Fin 3) * 2 ≤ (i 0).val ∧ (i 0).val < win0_6.index _ (0 : Fin 3) * 2 + 2; rw [e0]; show (i 0).val / 2 * 2 ≤ (i 0).val ∧ (i 0).val < (i 0).val / 2 * 2 + 2; omega
  | ⟨1, _⟩ => show win0_6.index _ (1 : Fin 3) * 256 ≤ (i 1).val ∧ (i 1).val < win0_6.index _ (1 : Fin 3) * 256 + 256; rw [e1]; omega
  | ⟨2, _⟩ => show win0_6.index _ (2 : Fin 3) * 256 ≤ (i 2).val ∧ (i 2).val < win0_6.index _ (2 : Fin 3) * 256 + 256; rw [e2]; omega

/-- Output window 7 (the transposed softmax along the keys): entry (b', k, a) of point t's block is entry (2t + b', k, a) of the array. -/
theorem emb7 (t : Fin cfg0.N) (b' : Fin 2) (p q : Fin 256) :
    ((cfg0.win 7).blk t).view.emb (ix3 b' p q) = ix3 (ex t b') p q := by
  obtain ⟨-, -, -, -, -, -, -, ⟨e0, e1, e2⟩, -, -⟩ := idx_facts t
  funext d; apply Fin.ext
  match d with
  | ⟨0, _⟩ => show win0_7.index t (0 : Fin 3) * 2 + 1 * b'.val = 2 * t.val + b'.val; rw [e0]; omega
  | ⟨1, _⟩ => show win0_7.index t (1 : Fin 3) * 256 + 1 * p.val = p.val; rw [e1]; omega
  | ⟨2, _⟩ => show win0_7.index t (2 : Fin 3) * 256 + 1 * q.val = q.val; rw [e2]; omega

/-- An index of the keys' softmax array is in point t's block iff each coordinate is in the block's range on its axis. -/
theorem mem_blk7 (t : Fin cfg0.N) (i : S128x256x256.Idx) :
    i ∈ ((cfg0.win 7).blk t).view.set ↔ ∀ a : Fin 3, win0_7.index t a * S2x256x256.size a ≤ (i a).val ∧ (i a).val < win0_7.index t a * S2x256x256.size a + S2x256x256.size a := by
  show i ∈ ((View.whole main_v2_3).slice (win0_7.rect t)).set ↔ _
  rw [View.set_slice_whole, Rect.mem_set_unit]
  exact Iff.rfl

/-- The blocks of output window 7 tile the keys' softmax array: example b lies in the block of point b / 2. -/
theorem cover7 (i : S128x256x256.Idx) : ∃ t : Fin cfg0.N, (cfg0.win 7).flush t = true ∧ i ∈ ((cfg0.win 7).blk t).view.set := by
  have h0 : (i 0).val < 128 := (i 0).isLt
  have h1 : (i 1).val < 256 := (i 1).isLt
  have h2 : (i 2).val < 256 := (i 2).isLt
  refine ⟨pt (i 0).val h0, flush0_7 _, ?_⟩
  rw [mem_blk7]
  obtain ⟨-, -, -, -, -, -, -, ⟨e0, e1, e2⟩, -, -⟩ := idx_facts (pt (i 0).val h0)
  intro a
  match a with
  | ⟨0, _⟩ => show win0_7.index _ (0 : Fin 3) * 2 ≤ (i 0).val ∧ (i 0).val < win0_7.index _ (0 : Fin 3) * 2 + 2; rw [e0]; show (i 0).val / 2 * 2 ≤ (i 0).val ∧ (i 0).val < (i 0).val / 2 * 2 + 2; omega
  | ⟨1, _⟩ => show win0_7.index _ (1 : Fin 3) * 256 ≤ (i 1).val ∧ (i 1).val < win0_7.index _ (1 : Fin 3) * 256 + 256; rw [e1]; omega
  | ⟨2, _⟩ => show win0_7.index _ (2 : Fin 3) * 256 ≤ (i 2).val ∧ (i 2).val < win0_7.index _ (2 : Fin 3) * 256 + 256; rw [e2]; omega

/-- Output window 8 (the gate over the keys' tokens, with a unit middle axis): entry (b', 0, k) of point t's block is entry (2t + b', 0, k) of the array. -/
theorem emb8 (t : Fin cfg0.N) (b' : Fin 2) (q : Fin 256) :
    ((cfg0.win 8).blk t).view.emb (ix3 b' (0 : Fin 1) q) = ix3 (ex t b') (0 : Fin 1) q := by
  obtain ⟨-, -, -, -, -, -, -, -, ⟨e0, e1, e2⟩, -⟩ := idx_facts t
  funext d; apply Fin.ext
  match d with
  | ⟨0, _⟩ => show win0_8.index t (0 : Fin 3) * 2 + 1 * b'.val = 2 * t.val + b'.val; rw [e0]; omega
  | ⟨1, _⟩ => show win0_8.index t (1 : Fin 3) * 1 + 1 * 0 = 0; rw [e1]
  | ⟨2, _⟩ => show win0_8.index t (2 : Fin 3) * 256 + 1 * q.val = q.val; rw [e2]; omega

/-- An index of the answers' gate array is in point t's block iff each coordinate is in the block's range on its axis. -/
theorem mem_blk8 (t : Fin cfg0.N) (i : S128x1x256.Idx) :
    i ∈ ((cfg0.win 8).blk t).view.set ↔ ∀ a : Fin 3, win0_8.index t a * S2x1x256.size a ≤ (i a).val ∧ (i a).val < win0_8.index t a * S2x1x256.size a + S2x1x256.size a := by
  show i ∈ ((View.whole main_v2_4).slice (win0_8.rect t)).set ↔ _
  rw [View.set_slice_whole, Rect.mem_set_unit]
  exact Iff.rfl

/-- The blocks of output window 8 tile the answers' gate array: example b lies in the block of point b / 2. -/
theorem cover8 (i : S128x1x256.Idx) : ∃ t : Fin cfg0.N, (cfg0.win 8).flush t = true ∧ i ∈ ((cfg0.win 8).blk t).view.set := by
  have h0 : (i 0).val < 128 := (i 0).isLt
  have h1 : (i 1).val < 1 := (i 1).isLt
  have h2 : (i 2).val < 256 := (i 2).isLt
  refine ⟨pt (i 0).val h0, flush0_8 _, ?_⟩
  rw [mem_blk8]
  obtain ⟨-, -, -, -, -, -, -, -, ⟨e0, e1, e2⟩, -⟩ := idx_facts (pt (i 0).val h0)
  intro a
  match a with
  | ⟨0, _⟩ => show win0_8.index _ (0 : Fin 3) * 2 ≤ (i 0).val ∧ (i 0).val < win0_8.index _ (0 : Fin 3) * 2 + 2; rw [e0]; show (i 0).val / 2 * 2 ≤ (i 0).val ∧ (i 0).val < (i 0).val / 2 * 2 + 2; omega
  | ⟨1, _⟩ => show win0_8.index _ (1 : Fin 3) * 1 ≤ (i 1).val ∧ (i 1).val < win0_8.index _ (1 : Fin 3) * 1 + 1; rw [e1]; omega
  | ⟨2, _⟩ => show win0_8.index _ (2 : Fin 3) * 256 ≤ (i 2).val ∧ (i 2).val < win0_8.index _ (2 : Fin 3) * 256 + 256; rw [e2]; omega

/-- Output window 9 (the gate over the answers' tokens, with a unit middle axis): entry (b', 0, a) of point t's block is entry (2t + b', 0, a) of the array. -/
theorem emb9 (t : Fin cfg0.N) (b' : Fin 2) (q : Fin 256) :
    ((cfg0.win 9).blk t).view.emb (ix3 b' (0 : Fin 1) q) = ix3 (ex t b') (0 : Fin 1) q := by
  obtain ⟨-, -, -, -, -, -, -, -, -, ⟨e0, e1, e2⟩⟩ := idx_facts t
  funext d; apply Fin.ext
  match d with
  | ⟨0, _⟩ => show win0_9.index t (0 : Fin 3) * 2 + 1 * b'.val = 2 * t.val + b'.val; rw [e0]; omega
  | ⟨1, _⟩ => show win0_9.index t (1 : Fin 3) * 1 + 1 * 0 = 0; rw [e1]
  | ⟨2, _⟩ => show win0_9.index t (2 : Fin 3) * 256 + 1 * q.val = q.val; rw [e2]; omega

/-- An index of the keys' gate array is in point t's block iff each coordinate is in the block's range on its axis. -/
theorem mem_blk9 (t : Fin cfg0.N) (i : S128x1x256.Idx) :
    i ∈ ((cfg0.win 9).blk t).view.set ↔ ∀ a : Fin 3, win0_9.index t a * S2x1x256.size a ≤ (i a).val ∧ (i a).val < win0_9.index t a * S2x1x256.size a + S2x1x256.size a := by
  show i ∈ ((View.whole main_v2_5).slice (win0_9.rect t)).set ↔ _
  rw [View.set_slice_whole, Rect.mem_set_unit]
  exact Iff.rfl

/-- The blocks of output window 9 tile the keys' gate array: example b lies in the block of point b / 2. -/
theorem cover9 (i : S128x1x256.Idx) : ∃ t : Fin cfg0.N, (cfg0.win 9).flush t = true ∧ i ∈ ((cfg0.win 9).blk t).view.set := by
  have h0 : (i 0).val < 128 := (i 0).isLt
  have h1 : (i 1).val < 1 := (i 1).isLt
  have h2 : (i 2).val < 256 := (i 2).isLt
  refine ⟨pt (i 0).val h0, flush0_9 _, ?_⟩
  rw [mem_blk9]
  obtain ⟨-, -, -, -, -, -, -, -, -, ⟨e0, e1, e2⟩⟩ := idx_facts (pt (i 0).val h0)
  intro a
  match a with
  | ⟨0, _⟩ => show win0_9.index _ (0 : Fin 3) * 2 ≤ (i 0).val ∧ (i 0).val < win0_9.index _ (0 : Fin 3) * 2 + 2; rw [e0]; show (i 0).val / 2 * 2 ≤ (i 0).val ∧ (i 0).val < (i 0).val / 2 * 2 + 2; omega
  | ⟨1, _⟩ => show win0_9.index _ (1 : Fin 3) * 1 ≤ (i 1).val ∧ (i 1).val < win0_9.index _ (1 : Fin 3) * 1 + 1; rw [e1]; omega
  | ⟨2, _⟩ => show win0_9.index _ (2 : Fin 3) * 256 ≤ (i 2).val ∧ (i 2).val < win0_9.index _ (2 : Fin 3) * 256 + 256; rw [e2]; omega

/-! ## The input blocks as examples of the arguments -/

/-- The answers' block at point t, example b': example 2t + b' of the argument. -/
theorem iblk0_sl (c : Dev nD) (t : Fin cfg0.N) (b' : Fin 2) :
    sl3 (iblk m c 0 t : Vec Ideal S2x256x1024 .f32) b' = sl3 (m ((c : Thread nD τ).loc main_arg0) : S128x256x1024.Idx → EReal) (ex t b') := by
  obtain ⟨⟨e0, e1, e2⟩, -, -, -, -, -, -, -, -, -⟩ := idx_facts t
  funext a e
  show V m c main_arg0 (((cfg0.win 0).blk t).view.emb (ix3 b' a e)) = m ((c : Thread nD τ).loc main_arg0) (ix3 (ex t b') a e)
  rw [V_main_arg0]
  refine congrArg _ (funext fun d => Fin.ext ?_)
  match d with
  | ⟨0, _⟩ => show win0_0.index t (0 : Fin 3) * 2 + 1 * b'.val = 2 * t.val + b'.val; rw [e0]; omega
  | ⟨1, _⟩ => show win0_0.index t (1 : Fin 3) * 256 + 1 * a.val = a.val; rw [e1]; omega
  | ⟨2, _⟩ => show win0_0.index t (2 : Fin 3) * 1024 + 1 * e.val = e.val; rw [e2]; omega

/-- The keys' block at point t, example b': example 2t + b' of the argument. -/
theorem iblk1_sl (c : Dev nD) (t : Fin cfg0.N) (b' : Fin 2) :
    sl3 (iblk m c 1 t : Vec Ideal S2x256x1024 .f32) b' = sl3 (m ((c : Thread nD τ).loc main_arg2) : S128x256x1024.Idx → EReal) (ex t b') := by
  obtain ⟨-, ⟨e0, e1, e2⟩, -, -, -, -, -, -, -, -⟩ := idx_facts t
  funext a e
  show V m c main_arg2 (((cfg0.win 1).blk t).view.emb (ix3 b' a e)) = m ((c : Thread nD τ).loc main_arg2) (ix3 (ex t b') a e)
  rw [V_main_arg2]
  refine congrArg _ (funext fun d => Fin.ext ?_)
  match d with
  | ⟨0, _⟩ => show win0_1.index t (0 : Fin 3) * 2 + 1 * b'.val = 2 * t.val + b'.val; rw [e0]; omega
  | ⟨1, _⟩ => show win0_1.index t (1 : Fin 3) * 256 + 1 * a.val = a.val; rw [e1]; omega
  | ⟨2, _⟩ => show win0_1.index t (2 : Fin 3) * 1024 + 1 * e.val = e.val; rw [e2]; omega

/-- The answers' mask as the region finds it: the host broadcast of the argument to a unit middle axis. -/
theorem V_v0 (c : Dev nD) : (V m c main_v0 : S128x1x256.Idx → EReal)
    = broadcastInDim S128x1x256 ![0, 2] bcast_S128x256_S128x1x256_0_2 (m ((c : Thread nD τ).loc main_arg1) : S128x256.Idx → EReal) := by
  show StableHlo.after hostOps0 (fun b => m (c, b)) (Proc.devRef .tc main_v0) = _
  after_results

/-- Read at (b, 0, a): the mask at (b, a). -/
theorem V_v0_apply (c : Dev nD) (b : Fin 128) (a : Fin 256) :
    (V m c main_v0 : S128x1x256.Idx → EReal) (ix3 b (0 : Fin 1) a) = (m ((c : Thread nD τ).loc main_arg1) : S128x256.Idx → EReal) (ix2 b a) := by
  rw [V_v0]
  exact broadcastInDim_apply _ bcast_S128x256_S128x1x256_0_2 _ (ix3 b (0 : Fin 1) a) (ix2 b a) (fun d => match d with
    | ⟨0, _⟩ => by show b.val = if (128 : Nat) = 1 then 0 else b.val; rw [if_neg (by decide)]
    | ⟨1, _⟩ => by show a.val = if (256 : Nat) = 1 then 0 else a.val; rw [if_neg (by decide)])

/-- The answers' mask block at point t, example b': example 2t + b' of the argument. -/
theorem iblk2_sl (c : Dev nD) (t : Fin cfg0.N) (b' : Fin 2) :
    slm (iblk m c 2 t : Vec Ideal S2x1x256 .f32) b' = sl2 (m ((c : Thread nD τ).loc main_arg1) : S128x256.Idx → EReal) (ex t b') := by
  obtain ⟨-, -, ⟨e0, e1, e2⟩, -, -, -, -, -, -, -⟩ := idx_facts t
  funext a
  show V m c main_v0 (((cfg0.win 2).blk t).view.emb (ix3 b' (0 : Fin 1) a)) = m ((c : Thread nD τ).loc main_arg1) (ix2 (ex t b') a)
  rw [← V_v0_apply m c (ex t b') a]
  refine congrArg _ (funext fun d => Fin.ext ?_)
  match d with
  | ⟨0, _⟩ => show win0_2.index t (0 : Fin 3) * 2 + 1 * b'.val = 2 * t.val + b'.val; rw [e0]; omega
  | ⟨1, _⟩ => show win0_2.index t (1 : Fin 3) * 1 + 1 * 0 = 0; rw [e1]
  | ⟨2, _⟩ => show win0_2.index t (2 : Fin 3) * 256 + 1 * a.val = a.val; rw [e2]; omega

/-- The keys' mask as the region finds it: the host broadcast of the argument to a unit middle axis. -/
theorem V_v1 (c : Dev nD) : (V m c main_v1 : S128x1x256.Idx → EReal)
    = broadcastInDim S128x1x256 ![0, 2] bcast_S128x256_S128x1x256_0_2 (m ((c : Thread nD τ).loc main_arg3) : S128x256.Idx → EReal) := by
  show StableHlo.after hostOps0 (fun b => m (c, b)) (Proc.devRef .tc main_v1) = _
  after_results

/-- Read at (b, 0, a): the mask at (b, a). -/
theorem V_v1_apply (c : Dev nD) (b : Fin 128) (a : Fin 256) :
    (V m c main_v1 : S128x1x256.Idx → EReal) (ix3 b (0 : Fin 1) a) = (m ((c : Thread nD τ).loc main_arg3) : S128x256.Idx → EReal) (ix2 b a) := by
  rw [V_v1]
  exact broadcastInDim_apply _ bcast_S128x256_S128x1x256_0_2 _ (ix3 b (0 : Fin 1) a) (ix2 b a) (fun d => match d with
    | ⟨0, _⟩ => by show b.val = if (128 : Nat) = 1 then 0 else b.val; rw [if_neg (by decide)]
    | ⟨1, _⟩ => by show a.val = if (256 : Nat) = 1 then 0 else a.val; rw [if_neg (by decide)])

/-- The keys' mask block at point t, example b': example 2t + b' of the argument. -/
theorem iblk3_sl (c : Dev nD) (t : Fin cfg0.N) (b' : Fin 2) :
    slm (iblk m c 3 t : Vec Ideal S2x1x256 .f32) b' = sl2 (m ((c : Thread nD τ).loc main_arg3) : S128x256.Idx → EReal) (ex t b') := by
  obtain ⟨-, -, -, ⟨e0, e1, e2⟩, -, -, -, -, -, -⟩ := idx_facts t
  funext a
  show V m c main_v1 (((cfg0.win 3).blk t).view.emb (ix3 b' (0 : Fin 1) a)) = m ((c : Thread nD τ).loc main_arg3) (ix2 (ex t b') a)
  rw [← V_v1_apply m c (ex t b') a]
  refine congrArg _ (funext fun d => Fin.ext ?_)
  match d with
  | ⟨0, _⟩ => show win0_3.index t (0 : Fin 3) * 2 + 1 * b'.val = 2 * t.val + b'.val; rw [e0]; omega
  | ⟨1, _⟩ => show win0_3.index t (1 : Fin 3) * 1 + 1 * 0 = 0; rw [e1]
  | ⟨2, _⟩ => show win0_3.index t (2 : Fin 3) * 256 + 1 * a.val = a.val; rw [e2]; omega

end Cert.KernelIdeal.KValue

end
-- ==== Proof.KernelMatmul.lean ====
/-
  The kernel's three contractions read at an index, at the ideal values.

  Each `tpu.matmul` of the body has the batch on axis 0 and ONE contracted axis, and accumulates into the zero splat, so at an
  output index it is a plain sum over the contracted coordinate of the operands' products:
  * the scores: (b, a, k) ↦ ∑ e, l (b, a, e) · r (b, k, e) (both operands contracted on their last axis);
  * a softmax along the keys against the keys: (b, a, e) ↦ ∑ k, l (b, a, k) · r (b, k, e);
  * a softmax along the answers against the answers, contracted on the answers' axis of both: (b, k, e) ↦ ∑ a, l (b, a, k) · r (b, a, e).
  The coordinate lemmas say, axis by axis, which coordinate of the output index or of the contraction index an operand's index takes.
-/
import proofs.«169121_j9311489098350_1_alg».proof.Proof.Gen.KernelIdeal.Skeleton
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx

/-! ## The scores: batch 0, the left operand's axis 1 and the right operand's axis 1 kept, axis 2 of both contracted -/

theorem lhs_scores_0 (i : S2x256x256.Idx) (q : dot_S2x256x1024_S2x256x1024_S2x256x256_2_2_1_1_0_0.contr.Idx) :
    (dot_S2x256x1024_S2x256x1024_S2x256x256_2_2_1_1_0_0.lhsIdx i q 0).val = (i 0).val := by
  unfold DotDims.lhsIdx
  rw [dif_pos (show (0 : Fin S2x256x1024.rank) ∈ dot_S2x256x1024_S2x256x1024_S2x256x256_2_2_1_1_0_0.lhsBatch by decide)]
  rfl
theorem lhs_scores_1 (i : S2x256x256.Idx) (q : dot_S2x256x1024_S2x256x1024_S2x256x256_2_2_1_1_0_0.contr.Idx) :
    (dot_S2x256x1024_S2x256x1024_S2x256x256_2_2_1_1_0_0.lhsIdx i q 1).val = (i 1).val := by
  unfold DotDims.lhsIdx
  rw [dif_neg (show ¬(1 : Fin S2x256x1024.rank) ∈ dot_S2x256x1024_S2x256x1024_S2x256x256_2_2_1_1_0_0.lhsBatch by decide), dif_pos (show (1 : Fin S2x256x1024.rank) ∈ dot_S2x256x1024_S2x256x1024_S2x256x256_2_2_1_1_0_0.lhsNonContracting by decide)]
  rfl
theorem lhs_scores_2 (i : S2x256x256.Idx) (q : dot_S2x256x1024_S2x256x1024_S2x256x256_2_2_1_1_0_0.contr.Idx) :
    (dot_S2x256x1024_S2x256x1024_S2x256x256_2_2_1_1_0_0.lhsIdx i q 2).val = (q ⟨0, by decide⟩).val :=
  dot_S2x256x1024_S2x256x1024_S2x256x256_2_2_1_1_0_0.lhsIdx_val_of_single rfl i q
theorem rhs_scores_0 (i : S2x256x256.Idx) (q : dot_S2x256x1024_S2x256x1024_S2x256x256_2_2_1_1_0_0.contr.Idx) :
    (dot_S2x256x1024_S2x256x1024_S2x256x256_2_2_1_1_0_0.rhsIdx i q 0).val = (i 0).val := by
  unfold DotDims.rhsIdx
  rw [dif_pos (show (0 : Fin S2x256x1024.rank) ∈ dot_S2x256x1024_S2x256x1024_S2x256x256_2_2_1_1_0_0.rhsBatch by decide)]
  rfl
theorem rhs_scores_1 (i : S2x256x256.Idx) (q : dot_S2x256x1024_S2x256x1024_S2x256x256_2_2_1_1_0_0.contr.Idx) :
    (dot_S2x256x1024_S2x256x1024_S2x256x256_2_2_1_1_0_0.rhsIdx i q 1).val = (i 2).val := by
  unfold DotDims.rhsIdx
  rw [dif_neg (show ¬(1 : Fin S2x256x1024.rank) ∈ dot_S2x256x1024_S2x256x1024_S2x256x256_2_2_1_1_0_0.rhsBatch by decide), dif_pos (show (1 : Fin S2x256x1024.rank) ∈ dot_S2x256x1024_S2x256x1024_S2x256x256_2_2_1_1_0_0.rhsNonContracting by decide)]
  rfl
theorem rhs_scores_2 (i : S2x256x256.Idx) (q : dot_S2x256x1024_S2x256x1024_S2x256x256_2_2_1_1_0_0.contr.Idx) :
    (dot_S2x256x1024_S2x256x1024_S2x256x256_2_2_1_1_0_0.rhsIdx i q 2).val = (q ⟨0, by decide⟩).val :=
  dot_S2x256x1024_S2x256x1024_S2x256x256_2_2_1_1_0_0.rhsIdx_val_of_single rfl i q

/-- The scores' contraction: both operands are read along their last axis. -/
theorem matmul_scores (l : FVec Ideal S2x256x1024 .bf16) (r : FVec Ideal S2x256x1024 .bf16) (b : Fin 2) (a k : Fin 256) :
    matmul dot_S2x256x1024_S2x256x1024_S2x256x256_2_2_1_1_0_0 none l r (constant S2x256x256 .f32 0x00000000#32) (ix3 b a k)
      = ∑ e : Fin 1024, l (ix3 b a e) * r (ix3 b k e) := by
  refine (Ideal.matmul_constant_zero_apply dot_S2x256x1024_S2x256x1024_S2x256x256_2_2_1_1_0_0 none l r (ix3 b a k)).trans ?_
  rw [← Equiv.sum_comp (contrEquiv1 dot_S2x256x1024_S2x256x1024_S2x256x256_2_2_1_1_0_0 1024 rfl rfl).symm]
  refine Finset.sum_congr rfl fun e _ => ?_
  have hk := contrEquiv1_symm_val dot_S2x256x1024_S2x256x1024_S2x256x256_2_2_1_1_0_0 1024 rfl rfl e
  have el : dot_S2x256x1024_S2x256x1024_S2x256x256_2_2_1_1_0_0.lhsIdx (ix3 b a k) ((contrEquiv1 dot_S2x256x1024_S2x256x1024_S2x256x256_2_2_1_1_0_0 1024 rfl rfl).symm e) = ix3 b a e :=
    funext fun d => Fin.ext (by
      match d with
      | ⟨0, _⟩ => exact lhs_scores_0 _ _
      | ⟨1, _⟩ => exact lhs_scores_1 _ _
      | ⟨2, _⟩ => exact (lhs_scores_2 _ _).trans hk)
  have er : dot_S2x256x1024_S2x256x1024_S2x256x256_2_2_1_1_0_0.rhsIdx (ix3 b a k) ((contrEquiv1 dot_S2x256x1024_S2x256x1024_S2x256x256_2_2_1_1_0_0 1024 rfl rfl).symm e) = ix3 b k e :=
    funext fun d => Fin.ext (by
      match d with
      | ⟨0, _⟩ => exact rhs_scores_0 _ _
      | ⟨1, _⟩ => exact rhs_scores_1 _ _
      | ⟨2, _⟩ => exact (rhs_scores_2 _ _).trans hk)
  rw [el, er]

/-! ## Against the keys: the left operand's axis 2 and the right operand's axis 1 contracted -/

theorem lhs_keys_0 (i : S2x256x1024.Idx) (q : dot_S2x256x256_S2x256x1024_S2x256x1024_2_1_1_2_0_0.contr.Idx) :
    (dot_S2x256x256_S2x256x1024_S2x256x1024_2_1_1_2_0_0.lhsIdx i q 0).val = (i 0).val := by
  unfold DotDims.lhsIdx
  rw [dif_pos (show (0 : Fin S2x256x256.rank) ∈ dot_S2x256x256_S2x256x1024_S2x256x1024_2_1_1_2_0_0.lhsBatch by decide)]
  rfl
theorem lhs_keys_1 (i : S2x256x1024.Idx) (q : dot_S2x256x256_S2x256x1024_S2x256x1024_2_1_1_2_0_0.contr.Idx) :
    (dot_S2x256x256_S2x256x1024_S2x256x1024_2_1_1_2_0_0.lhsIdx i q 1).val = (i 1).val := by
  unfold DotDims.lhsIdx
  rw [dif_neg (show ¬(1 : Fin S2x256x256.rank) ∈ dot_S2x256x256_S2x256x1024_S2x256x1024_2_1_1_2_0_0.lhsBatch by decide), dif_pos (show (1 : Fin S2x256x256.rank) ∈ dot_S2x256x256_S2x256x1024_S2x256x1024_2_1_1_2_0_0.lhsNonContracting by decide)]
  rfl
theorem lhs_keys_2 (i : S2x256x1024.Idx) (q : dot_S2x256x256_S2x256x1024_S2x256x1024_2_1_1_2_0_0.contr.Idx) :
    (dot_S2x256x256_S2x256x1024_S2x256x1024_2_1_1_2_0_0.lhsIdx i q 2).val = (q ⟨0, by decide⟩).val :=
  dot_S2x256x256_S2x256x1024_S2x256x1024_2_1_1_2_0_0.lhsIdx_val_of_single rfl i q
theorem rhs_keys_0 (i : S2x256x1024.Idx) (q : dot_S2x256x256_S2x256x1024_S2x256x1024_2_1_1_2_0_0.contr.Idx) :
    (dot_S2x256x256_S2x256x1024_S2x256x1024_2_1_1_2_0_0.rhsIdx i q 0).val = (i 0).val := by
  unfold DotDims.rhsIdx
  rw [dif_pos (show (0 : Fin S2x256x1024.rank) ∈ dot_S2x256x256_S2x256x1024_S2x256x1024_2_1_1_2_0_0.rhsBatch by decide)]
  rfl
theorem rhs_keys_1 (i : S2x256x1024.Idx) (q : dot_S2x256x256_S2x256x1024_S2x256x1024_2_1_1_2_0_0.contr.Idx) :
    (dot_S2x256x256_S2x256x1024_S2x256x1024_2_1_1_2_0_0.rhsIdx i q 1).val = (q ⟨0, by decide⟩).val :=
  dot_S2x256x256_S2x256x1024_S2x256x1024_2_1_1_2_0_0.rhsIdx_val_of_single rfl i q
theorem rhs_keys_2 (i : S2x256x1024.Idx) (q : dot_S2x256x256_S2x256x1024_S2x256x1024_2_1_1_2_0_0.contr.Idx) :
    (dot_S2x256x256_S2x256x1024_S2x256x1024_2_1_1_2_0_0.rhsIdx i q 2).val = (i 2).val := by
  unfold DotDims.rhsIdx
  rw [dif_neg (show ¬(2 : Fin S2x256x1024.rank) ∈ dot_S2x256x256_S2x256x1024_S2x256x1024_2_1_1_2_0_0.rhsBatch by decide), dif_pos (show (2 : Fin S2x256x1024.rank) ∈ dot_S2x256x256_S2x256x1024_S2x256x1024_2_1_1_2_0_0.rhsNonContracting by decide)]
  rfl

/-- A softmax along the keys against the keys: the left operand is read along its last axis, the right along its middle one. -/
theorem matmul_keys (l : FVec Ideal S2x256x256 .bf16) (r : FVec Ideal S2x256x1024 .bf16) (b : Fin 2) (a : Fin 256) (e : Fin 1024) :
    matmul dot_S2x256x256_S2x256x1024_S2x256x1024_2_1_1_2_0_0 none l r (constant S2x256x1024 .f32 0x00000000#32) (ix3 b a e)
      = ∑ k : Fin 256, l (ix3 b a k) * r (ix3 b k e) := by
  refine (Ideal.matmul_constant_zero_apply dot_S2x256x256_S2x256x1024_S2x256x1024_2_1_1_2_0_0 none l r (ix3 b a e)).trans ?_
  rw [← Equiv.sum_comp (contrEquiv1 dot_S2x256x256_S2x256x1024_S2x256x1024_2_1_1_2_0_0 256 rfl rfl).symm]
  refine Finset.sum_congr rfl fun k _ => ?_
  have hk := contrEquiv1_symm_val dot_S2x256x256_S2x256x1024_S2x256x1024_2_1_1_2_0_0 256 rfl rfl k
  have el : dot_S2x256x256_S2x256x1024_S2x256x1024_2_1_1_2_0_0.lhsIdx (ix3 b a e) ((contrEquiv1 dot_S2x256x256_S2x256x1024_S2x256x1024_2_1_1_2_0_0 256 rfl rfl).symm k) = ix3 b a k :=
    funext fun d => Fin.ext (by
      match d with
      | ⟨0, _⟩ => exact lhs_keys_0 _ _
      | ⟨1, _⟩ => exact lhs_keys_1 _ _
      | ⟨2, _⟩ => exact (lhs_keys_2 _ _).trans hk)
  have er : dot_S2x256x256_S2x256x1024_S2x256x1024_2_1_1_2_0_0.rhsIdx (ix3 b a e) ((contrEquiv1 dot_S2x256x256_S2x256x1024_S2x256x1024_2_1_1_2_0_0 256 rfl rfl).symm k) = ix3 b k e :=
    funext fun d => Fin.ext (by
      match d with
      | ⟨0, _⟩ => exact rhs_keys_0 _ _
      | ⟨1, _⟩ => exact (rhs_keys_1 _ _).trans hk
      | ⟨2, _⟩ => exact rhs_keys_2 _ _)
  rw [el, er]

/-! ## Against the answers: axis 1 of both operands contracted -/

theorem lhs_answers_0 (i : S2x256x1024.Idx) (q : dot_S2x256x256_S2x256x1024_S2x256x1024_1_1_2_2_0_0.contr.Idx) :
    (dot_S2x256x256_S2x256x1024_S2x256x1024_1_1_2_2_0_0.lhsIdx i q 0).val = (i 0).val := by
  unfold DotDims.lhsIdx
  rw [dif_pos (show (0 : Fin S2x256x256.rank) ∈ dot_S2x256x256_S2x256x1024_S2x256x1024_1_1_2_2_0_0.lhsBatch by decide)]
  rfl
theorem lhs_answers_1 (i : S2x256x1024.Idx) (q : dot_S2x256x256_S2x256x1024_S2x256x1024_1_1_2_2_0_0.contr.Idx) :
    (dot_S2x256x256_S2x256x1024_S2x256x1024_1_1_2_2_0_0.lhsIdx i q 1).val = (q ⟨0, by decide⟩).val :=
  dot_S2x256x256_S2x256x1024_S2x256x1024_1_1_2_2_0_0.lhsIdx_val_of_single rfl i q
theorem lhs_answers_2 (i : S2x256x1024.Idx) (q : dot_S2x256x256_S2x256x1024_S2x256x1024_1_1_2_2_0_0.contr.Idx) :
    (dot_S2x256x256_S2x256x1024_S2x256x1024_1_1_2_2_0_0.lhsIdx i q 2).val = (i 1).val := by
  unfold DotDims.lhsIdx
  rw [dif_neg (show ¬(2 : Fin S2x256x256.rank) ∈ dot_S2x256x256_S2x256x1024_S2x256x1024_1_1_2_2_0_0.lhsBatch by decide), dif_pos (show (2 : Fin S2x256x256.rank) ∈ dot_S2x256x256_S2x256x1024_S2x256x1024_1_1_2_2_0_0.lhsNonContracting by decide)]
  rfl
theorem rhs_answers_0 (i : S2x256x1024.Idx) (q : dot_S2x256x256_S2x256x1024_S2x256x1024_1_1_2_2_0_0.contr.Idx) :
    (dot_S2x256x256_S2x256x1024_S2x256x1024_1_1_2_2_0_0.rhsIdx i q 0).val = (i 0).val := by
  unfold DotDims.rhsIdx
  rw [dif_pos (show (0 : Fin S2x256x1024.rank) ∈ dot_S2x256x256_S2x256x1024_S2x256x1024_1_1_2_2_0_0.rhsBatch by decide)]
  rfl
theorem rhs_answers_1 (i : S2x256x1024.Idx) (q : dot_S2x256x256_S2x256x1024_S2x256x1024_1_1_2_2_0_0.contr.Idx) :
    (dot_S2x256x256_S2x256x1024_S2x256x1024_1_1_2_2_0_0.rhsIdx i q 1).val = (q ⟨0, by decide⟩).val :=
  dot_S2x256x256_S2x256x1024_S2x256x1024_1_1_2_2_0_0.rhsIdx_val_of_single rfl i q
theorem rhs_answers_2 (i : S2x256x1024.Idx) (q : dot_S2x256x256_S2x256x1024_S2x256x1024_1_1_2_2_0_0.contr.Idx) :
    (dot_S2x256x256_S2x256x1024_S2x256x1024_1_1_2_2_0_0.rhsIdx i q 2).val = (i 2).val := by
  unfold DotDims.rhsIdx
  rw [dif_neg (show ¬(2 : Fin S2x256x1024.rank) ∈ dot_S2x256x256_S2x256x1024_S2x256x1024_1_1_2_2_0_0.rhsBatch by decide), dif_pos (show (2 : Fin S2x256x1024.rank) ∈ dot_S2x256x256_S2x256x1024_S2x256x1024_1_1_2_2_0_0.rhsNonContracting by decide)]
  rfl

/-- A softmax along the answers against the answers: both operands are read along their middle axis. -/
theorem matmul_answers (l : FVec Ideal S2x256x256 .bf16) (r : FVec Ideal S2x256x1024 .bf16) (b : Fin 2) (k : Fin 256) (e : Fin 1024) :
    matmul dot_S2x256x256_S2x256x1024_S2x256x1024_1_1_2_2_0_0 none l r (constant S2x256x1024 .f32 0x00000000#32) (ix3 b k e)
      = ∑ a : Fin 256, l (ix3 b a k) * r (ix3 b a e) := by
  refine (Ideal.matmul_constant_zero_apply dot_S2x256x256_S2x256x1024_S2x256x1024_1_1_2_2_0_0 none l r (ix3 b k e)).trans ?_
  rw [← Equiv.sum_comp (contrEquiv1 dot_S2x256x256_S2x256x1024_S2x256x1024_1_1_2_2_0_0 256 rfl rfl).symm]
  refine Finset.sum_congr rfl fun a _ => ?_
  have hk := contrEquiv1_symm_val dot_S2x256x256_S2x256x1024_S2x256x1024_1_1_2_2_0_0 256 rfl rfl a
  have el : dot_S2x256x256_S2x256x1024_S2x256x1024_1_1_2_2_0_0.lhsIdx (ix3 b k e) ((contrEquiv1 dot_S2x256x256_S2x256x1024_S2x256x1024_1_1_2_2_0_0 256 rfl rfl).symm a) = ix3 b a k :=
    funext fun d => Fin.ext (by
      match d with
      | ⟨0, _⟩ => exact lhs_answers_0 _ _
      | ⟨1, _⟩ => exact (lhs_answers_1 _ _).trans hk
      | ⟨2, _⟩ => exact lhs_answers_2 _ _)
  have er : dot_S2x256x256_S2x256x1024_S2x256x1024_1_1_2_2_0_0.rhsIdx (ix3 b k e) ((contrEquiv1 dot_S2x256x256_S2x256x1024_S2x256x1024_1_1_2_2_0_0 256 rfl rfl).symm a) = ix3 b a e :=
    funext fun d => Fin.ext (by
      match d with
      | ⟨0, _⟩ => exact rhs_answers_0 _ _
      | ⟨1, _⟩ => exact (rhs_answers_1 _ _).trans hk
      | ⟨2, _⟩ => exact rhs_answers_2 _ _)
  rw [el, er]

end Cert.KernelIdeal.KValue

end
-- ==== Proof.LibLastAxisRows.lean ====
/-
  Row statistics along the LAST axis of a rank-3 vector, at the ideal values, for any extents a, b, c.

  A softmax (or any normalisation with keepdims) over the last axis of an [a, b, c] vector takes a statistic of each
  row (p, q, ·) — its maximum, its sum — as a `vector.multi_reduction` over axis 2 into [a, b], and puts it back
  beside every entry of the row by a `vector.shape_cast` [a, b] → [a, b, 1] followed by a `vector.broadcast`
  [a, b, 1] → [a, b, c]. Read at (p, q, k):
  * `lift_last`: the reduced index (p, q) with coordinate `k` put back on axis 2 is (p, q, k);
  * `multiReduction_add_last`: the `<add>` reduction at (p, q) is `∑ k, src (p, q, k)`;
  * `multiReduction_maximumf_last`: the `<maximumf>` reduction at (p, q) is the fold of `max`, from the accumulator's
    value, over `k ↦ src (p, q, k)`;
  * `keepdims_last`: the cast and the broadcast read, at (p, q, k), the statistic at (p, q) — for `c = 1` too, and
    whatever `a` and `b` are.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.LastAxisRows

open Idealize.ShloMosaic Idealize.ShloMosaic.ValueIdx

variable {a b c : Nat}

/-- The reduced index (p, q) with coordinate `k` put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float `vector.multi_reduction <add>` over the last axis, at (p, q): the sum of the row's entries. -/
theorem multiReduction_add_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] (⟨2, ![a, b]⟩ : Shape) src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A float `vector.multi_reduction <maximumf>` over the last axis, at (p, q): the fold of `max` over the row's
    entries, from the accumulator's value. -/
theorem multiReduction_maximumf_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction .maximumf [2] (⟨2, ![a, b]⟩ : Shape) src acc h hφ hacc (ix2 p q)
      = (Finset.univ : Finset (Fin c)).fold max (FloatOps.ofBits φ acc) (fun k => src (ix3 p q k)) := by
  refine (Ideal.multiReduction_maximumf_single src acc h hφ hacc (ix2 p q)).trans ?_
  have hf : (src ∘ h.lift (ix2 p q)) = fun k : Fin c => src (ix3 p q k) := funext fun k => congrArg src (lift_last h p q k)
  exact congrArg (fun f => Finset.fold max (FloatOps.ofBits φ acc) f (Finset.univ : Finset (Fin c))) hf

/-- A row statistic put back on its row (keepdims): the cast to a unit last axis and the broadcast along it read, at
    (p, q, k), the statistic at (p, q). -/
theorem keepdims_last {α : Type} (R : (⟨2, ![a, b]⟩ : Shape).Idx → α)
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (k : Fin c) :
    broadcastTo (⟨3, ![a, b, c]⟩ : Shape) (shapeCast (⟨3, ![a, b, 1]⟩ : Shape) R h1) h2 (ix3 p q k) = R (ix2 p q) := by
  refine (broadcastTo_apply (shapeCast (⟨3, ![a, b, 1]⟩ : Shape) R h1) h2 (ix3 p q k) (ix3 p q (0 : Fin 1)) ?_).trans ?_
  · intro d
    match d with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => exact (if_pos rfl).symm
  · refine shapeCast_apply R h1 (ix3 p q (0 : Fin 1)) (ix2 p q) ?_
    rw [Shape.rowMajor_val_two, Shape.rowMajor_val_three]
    show p.val * b + q.val = (p.val * b + q.val) * 1 + 0
    omega

end Idealize.ShloMosaic.LastAxisRows

end
-- ==== Proof.LibMidAxisRows.lean ====
/-
  Row statistics along the MIDDLE axis of a rank-3 vector, and the layout steps beside them, at the ideal values, for
  any extents a, b, c.

  A normalisation over the middle axis of an [a, b, c] vector takes a statistic of each line (p, ·, k) — its maximum,
  its sum — as a `vector.multi_reduction` over axis 1 into [a, c], and puts it back beside every entry of the line by a
  `vector.shape_cast` [a, c] → [a, 1, c] followed by a `vector.broadcast` [a, 1, c] → [a, b, c]. Read at (p, q, k):
  * `lift_mid`: the reduced index (p, k) with coordinate `q` put back on axis 1 is (p, q, k);
  * `multiReduction_add_mid`: the `<add>` reduction at (p, k) is `∑ q, src (p, q, k)`;
  * `multiReduction_maximumf_mid`: the `<maximumf>` reduction at (p, k) is the fold of `max`, from the accumulator's
    value, over `q ↦ src (p, q, k)`;
  * `keepdims_mid`: the cast and the broadcast read, at (p, q, k), the statistic at (p, k) — for `b = 1` too, and
    whatever `a` and `c` are;
  * `squeeze_mid` / `unsqueeze_mid`: a shape cast that drops or adds a unit middle axis keeps (p, k) beside (p, 0, k);
  * `transpose_021`: the last two axes swapped, read at (p, k, q), is the operand at (p, q, k);
  * `concat_axis1` (and `concat_axis1_of_eq`, the joined extent a name of its own): two matrices joined along their
    columns read, at (p, j), the first at (p, j) when `j` is below its width and the second at (p, j − width) otherwise.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.MidAxisRows

open Idealize.ShloMosaic Idealize.ShloMosaic.ValueIdx

variable {a b c : Nat}

/-- The reduced index (p, k) with coordinate `q` put back on the middle axis is (p, q, k). -/
theorem lift_mid (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- A float `vector.multi_reduction <add>` over the middle axis, at (p, k): the sum over q of the entries (p, q, k). -/
theorem multiReduction_add_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.add.neutral φ hφ) (p : Fin a) (k : Fin c) :
    multiReduction .add [1] (⟨2, ![a, c]⟩ : Shape) src acc h hφ hacc (ix2 p k) = ∑ q : Fin b, src (ix3 p q k) := by
  refine (Ideal.multiReduction_add_single src acc h hφ hacc (ix2 p k)).trans ?_
  exact Finset.sum_congr rfl fun q _ => congrArg src (lift_mid h p k q)

/-- A float `vector.multi_reduction <maximumf>` over the middle axis, at (p, k): the fold of `max` over the entries
    (p, q, k), q running, from the accumulator's value. -/
theorem multiReduction_maximumf_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.maximumf.neutral φ hφ) (p : Fin a) (k : Fin c) :
    multiReduction .maximumf [1] (⟨2, ![a, c]⟩ : Shape) src acc h hφ hacc (ix2 p k)
      = (Finset.univ : Finset (Fin b)).fold max (FloatOps.ofBits φ acc) (fun q => src (ix3 p q k)) := by
  refine (Ideal.multiReduction_maximumf_single src acc h hφ hacc (ix2 p k)).trans ?_
  have hf : (src ∘ h.lift (ix2 p k)) = fun q : Fin b => src (ix3 p q k) := funext fun q => congrArg src (lift_mid h p k q)
  exact congrArg (fun f => Finset.fold max (FloatOps.ofBits φ acc) f (Finset.univ : Finset (Fin b))) hf

/-- A line statistic put back on its line (keepdims): the cast to a unit middle axis and the broadcast along it read,
    at (p, q, k), the statistic at (p, k). -/
theorem keepdims_mid {α : Type} (R : (⟨2, ![a, c]⟩ : Shape).Idx → α)
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (k : Fin c) :
    broadcastTo (⟨3, ![a, b, c]⟩ : Shape) (shapeCast (⟨3, ![a, 1, c]⟩ : Shape) R h1) h2 (ix3 p q k) = R (ix2 p k) := by
  refine (broadcastTo_apply (shapeCast (⟨3, ![a, 1, c]⟩ : Shape) R h1) h2 (ix3 p q k) (ix3 p (0 : Fin 1) k) ?_).trans ?_
  · intro d
    match d with
    | ⟨0, _⟩ =>
      show p.val = if a = 1 then 0 else p.val
      split
      · have := p.isLt; omega
      · rfl
    | ⟨1, _⟩ => exact (if_pos rfl).symm
    | ⟨2, _⟩ =>
      show k.val = if c = 1 then 0 else k.val
      split
      · have := k.isLt; omega
      · rfl
  · refine shapeCast_apply R h1 (ix3 p (0 : Fin 1) k) (ix2 p k) ?_
    rw [Shape.rowMajor_val_two, Shape.rowMajor_val_three]
    show p.val * c + k.val = (p.val * 1 + 0) * c + k.val
    rw [Nat.mul_one, Nat.add_zero]

/-- A shape cast that drops a unit middle axis reads, at (p, k), the operand at (p, 0, k). -/
theorem squeeze_mid {α : Type} (x : (⟨3, ![a, 1, c]⟩ : Shape).Idx → α)
    (h : (⟨3, ![a, 1, c]⟩ : Shape).ShapeCasts (⟨2, ![a, c]⟩ : Shape)) (p : Fin a) (k : Fin c) :
    shapeCast (⟨2, ![a, c]⟩ : Shape) x h (ix2 p k) = x (ix3 p (0 : Fin 1) k) := by
  refine shapeCast_apply x h (ix2 p k) (ix3 p (0 : Fin 1) k) ?_
  rw [Shape.rowMajor_val_two, Shape.rowMajor_val_three]
  show (p.val * 1 + 0) * c + k.val = p.val * c + k.val
  rw [Nat.mul_one, Nat.add_zero]

/-- A shape cast that adds a unit middle axis reads, at (p, 0, k), the operand at (p, k). -/
theorem unsqueeze_mid {α : Type} (y : (⟨2, ![a, c]⟩ : Shape).Idx → α)
    (h : (⟨2, ![a, c]⟩ : Shape).ShapeCasts (⟨3, ![a, 1, c]⟩ : Shape)) (p : Fin a) (k : Fin c) :
    shapeCast (⟨3, ![a, 1, c]⟩ : Shape) y h (ix3 p (0 : Fin 1) k) = y (ix2 p k) := by
  refine shapeCast_apply y h (ix3 p (0 : Fin 1) k) (ix2 p k) ?_
  rw [Shape.rowMajor_val_two, Shape.rowMajor_val_three]
  show p.val * c + k.val = (p.val * 1 + 0) * c + k.val
  rw [Nat.mul_one, Nat.add_zero]

/-- A stack of matrices, each transposed (the last two axes swapped), reads, at (p, k, q), the operand at (p, q, k). -/
theorem transpose_021 {α : Type} (x : (⟨3, ![a, b, c]⟩ : Shape).Idx → α)
    (h : (⟨3, ![a, b, c]⟩ : Shape).Transposes [0, 2, 1] (⟨3, ![a, c, b]⟩ : Shape)) (p : Fin a) (k : Fin c) (q : Fin b) :
    transpose (⟨3, ![a, c, b]⟩ : Shape) [0, 2, 1] x h (ix3 p k q) = x (ix3 p q k) :=
  transpose_apply _ x h _ _ fun d => match d with | ⟨0, _⟩ => rfl | ⟨1, _⟩ => rfl | ⟨2, _⟩ => rfl

/-- Two matrices with the same rows joined along their columns, the joined width named `n`: at (p, j) the first at
    (p, j) when `j` is below its width `b1`, the second at (p, j − b1) otherwise. -/
theorem concat_axis1_of_eq {α : Type} {b1 b2 n : Nat} (hn : n = b1 + b2) (x : (⟨2, ![a, b1]⟩ : Shape).Idx → α)
    (y : (⟨2, ![a, b2]⟩ : Shape).Idx → α)
    (h : Shape.Concatenates [(⟨2, ![a, b1]⟩ : Shape), (⟨2, ![a, b2]⟩ : Shape)] (⟨2, ![a, n]⟩ : Shape) 1) (p : Fin a)
    (j : Fin n) :
    concatenate (⟨2, ![a, n]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by have := j.isLt; omega⟩) := by
  by_cases hj : j.val < b1
  · rw [dif_pos hj]
    refine concatenate_pair_apply_left 1 x y h (ix2 p j) rfl (ix2 p ⟨j.val, hj⟩) ?_
    intro d
    match d with
    | ⟨0, _⟩ => rfl
    | ⟨1, _⟩ => rfl
  · rw [dif_neg hj]
    refine concatenate_pair_apply_right 1 x y h (ix2 p j) rfl rfl (ix2 p ⟨j.val - b1, by have := j.isLt; omega⟩) ?_ ?_
    · intro d hd
      match d, hd with
      | ⟨0, _⟩, _ => rfl
      | ⟨1, _⟩, hd => exact absurd rfl hd
    · show j.val - b1 + b1 = j.val
      omega

/-- Two matrices with the same rows joined along their columns: at (p, j) the first at (p, j) when `j` is below its
    width `b1`, the second at (p, j − b1) otherwise. -/
theorem concat_axis1 {α : Type} {b1 b2 : Nat} (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, b1 + b2]⟩ : Shape) 1) (p : Fin a)
    (j : Fin (b1 + b2)) :
    concatenate (⟨2, ![a, b1 + b2]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by omega⟩) :=
  concat_axis1_of_eq rfl x y h p j

end Idealize.ShloMosaic.MidAxisRows

end
-- ==== Proof.KernelBody.lean ====
/-
  The kernel body's values read at an index, at the ideal values, as the specification's per-example functions.

  The body works on a block of two examples. Every value it computes is read here at an index whose first coordinate
  is the example b, and is the specification's function of that example's slices: the masks and additive masks, the
  masked sequences A and K, the scores Z (a contraction over the features), the product of the floored norms, the two
  masked softmaxes (along the keys: SK; along the answers: SA), the cosine scores and the two gates, the attended
  sequences and their pooled maxima, joined into the feature vector.
  The elementwise operations read through by definition; each reduction, each cast-and-broadcast of a row statistic,
  each contraction, the transpose and the concatenation are one lemma each.
-/
import proofs.«169121_j9311489098350_1_alg».proof.Proof.Gen.KernelIdeal.Skeleton
import proofs.«169121_j9311489098350_1_alg».proof.Proof.Spec
import proofs.«169121_j9311489098350_1_alg».proof.Proof.KernelMatmul
import proofs.«169121_j9311489098350_1_alg».proof.Proof.LibLastAxisRows
import proofs.«169121_j9311489098350_1_alg».proof.Proof.LibMidAxisRows

noncomputable section

namespace Cert.KernelIdeal.KValue

open Cert.KernelIdeal Cert.KernelIdeal.Gen Idealize.ShloMosaic Idealize.ShloMosaic.ValueIdx
open Idealize.ShloMosaic.LastAxisRows Idealize.ShloMosaic.MidAxisRows CoAttn

variable (x0 x1 : Vec Ideal S2x256x1024 .f32) (x2 x3 : Vec Ideal S2x1x256 .f32) (b : Fin 2)

/-! ## The masks -/

/-- The answers' mask with its unit axis dropped, at (b, a): the mask of example b at token a. -/
theorem pay6_ix (a : Fin 256) : k0_pay6 x2 (ix2 b a) = slm x2 b a :=
  squeeze_mid x2 shapeCasts_S2x1x256_S2x256 b a

/-- The keys' mask with its unit axis dropped, at (b, k). -/
theorem pay7_ix (k : Fin 256) : k0_pay7 x3 (ix2 b k) = slm x3 b k :=
  squeeze_mid x3 shapeCasts_S2x1x256_S2x256 b k

/-- The answers' additive mask (1 − m) · (−10⁴), at (b, a). -/
theorem pay8_ix (a : Fin 256) : k0_pay8 x2 (ix2 b a) = mai (slm x2 b) a := by
  show (c1 - k0_pay6 x2 (ix2 b a)) * cNeg = (c1 - slm x2 b a) * cNeg
  rw [pay6_ix]

/-- The keys' additive mask, at (b, k). -/
theorem pay9_ix (k : Fin 256) : k0_pay9 x3 (ix2 b k) = mki (slm x3 b) k := by
  show (c1 - k0_pay7 x3 (ix2 b k)) * cNeg = (c1 - slm x3 b k) * cNeg
  rw [pay7_ix]

/-! ## The masked sequences -/

/-- The masked answers, at (b, a, e): the entry times the token's mask. -/
theorem pay10_ix (a : Fin 256) (e : Fin 1024) : k0_pay10 x2 x0 (ix3 b a e) = A (sl3 x0 b) (slm x2 b) a e := by
  show (x0 (ix3 b a e) : EReal)
      * broadcastTo S2x256x1024 (shapeCast S2x256x1 (k0_pay6 x2) shapeCasts_S2x256_S2x256x1) broadcasts_S2x256x1_S2x256x1024 (ix3 b a e)
    = (x0 (ix3 b a e) : EReal) * slm x2 b a
  rw [keepdims_last (k0_pay6 x2) shapeCasts_S2x256_S2x256x1 broadcasts_S2x256x1_S2x256x1024 b a e, pay6_ix]

/-- The masked keys, at (b, k, e). -/
theorem pay11_ix (k : Fin 256) (e : Fin 1024) : k0_pay11 x3 x1 (ix3 b k e) = K (sl3 x1 b) (slm x3 b) k e := by
  show (x1 (ix3 b k e) : EReal)
      * broadcastTo S2x256x1024 (shapeCast S2x256x1 (k0_pay7 x3) shapeCasts_S2x256_S2x256x1) broadcasts_S2x256x1_S2x256x1024 (ix3 b k e)
    = (x1 (ix3 b k e) : EReal) * slm x3 b k
  rw [keepdims_last (k0_pay7 x3) shapeCasts_S2x256_S2x256x1 broadcasts_S2x256x1_S2x256x1024 b k e, pay7_ix]

/-- The masked answers in the contraction's format: the same ideal values. -/
theorem pay12_ix (a : Fin 256) (e : Fin 1024) : k0_pay12 x2 x0 (ix3 b a e) = A (sl3 x0 b) (slm x2 b) a e :=
  pay10_ix x0 x2 b a e

/-- The masked keys in the contraction's format: the same ideal values. -/
theorem pay13_ix (k : Fin 256) (e : Fin 1024) : k0_pay13 x3 x1 (ix3 b k e) = K (sl3 x1 b) (slm x3 b) k e :=
  pay11_ix x1 x3 b k e

/-! ## The scores and the norms -/

/-- The scores, at (b, a, k): the sum over the features of the masked answer's entry times the masked key's. -/
theorem pay14_ix (a k : Fin 256) :
    k0_pay14 x2 x3 x0 x1 (ix3 b a k) = Z (sl3 x0 b) (sl3 x1 b) (slm x2 b) (slm x3 b) a k := by
  refine (matmul_scores (k0_pay12 x2 x0) (k0_pay13 x3 x1) b a k).trans ?_
  show _ = ∑ e : Fin 1024, A (sl3 x0 b) (slm x2 b) a e * K (sl3 x1 b) (slm x3 b) k e
  refine Finset.sum_congr rfl fun e _ => ?_
  rw [pay12_ix, pay13_ix]

/-- Window 5 stores the scores. -/
theorem out5_ix (a k : Fin 256) :
    k0_pay14 x2 x3 x0 x1 (ix3 b a k) = Z (sl3 x0 b) (sl3 x1 b) (slm x2 b) (slm x3 b) a k :=
  pay14_ix x0 x1 x2 x3 b a k

/-- A floored norm along the last axis, at (b, a): the square root of the larger of the row's sum of squares and the floor. -/
theorem norm_ix (P : FVec Ideal S2x256x1024 .f32) (a : Fin 256) :
    sqrt (maximumf (multiReduction .add [2] S2x256 (mulf P P) 0x00000000#32 reduces_S2x256x1024_S2x256 (.inl rfl) rfl)
        (broadcast S2x256 (Scalar.ofBits .f32 0x322BCC77#32))) (ix2 b a)
      = Ideal.sqrt (max (∑ e : Fin 1024, P (ix3 b a e) * P (ix3 b a e)) cEps) := by
  show Ideal.sqrt (max (multiReduction .add [2] S2x256 (mulf P P) 0x00000000#32 reduces_S2x256x1024_S2x256 (.inl rfl) rfl (ix2 b a)) cEps) = _
  rw [multiReduction_add_last (mulf P P) 0x00000000#32 reduces_S2x256x1024_S2x256 (.inl rfl) rfl b a]
  rfl

/-- The product of the floored norms, at (b, a, k): the answer token's norm times the key token's. -/
theorem pay15_ix (a k : Fin 256) :
    k0_pay15 x2 x3 x0 x1 (ix3 b a k) = na (sl3 x0 b) (slm x2 b) a * nk (sl3 x1 b) (slm x3 b) k := by
  have hA : sqrt (maximumf (multiReduction .add [2] S2x256 (mulf (k0_pay10 x2 x0) (k0_pay10 x2 x0)) 0x00000000#32 reduces_S2x256x1024_S2x256 (.inl rfl) rfl)
        (broadcast S2x256 (Scalar.ofBits .f32 0x322BCC77#32))) (ix2 b a) = na (sl3 x0 b) (slm x2 b) a := by
    refine (norm_ix b (k0_pay10 x2 x0) a).trans ?_
    show _ = Ideal.sqrt (max (∑ e : Fin 1024, A (sl3 x0 b) (slm x2 b) a e * A (sl3 x0 b) (slm x2 b) a e) cEps)
    refine congrArg (fun s => Ideal.sqrt (max s cEps)) (Finset.sum_congr rfl fun e _ => ?_)
    rw [pay10_ix]
  have hK : sqrt (maximumf (multiReduction .add [2] S2x256 (mulf (k0_pay11 x3 x1) (k0_pay11 x3 x1)) 0x00000000#32 reduces_S2x256x1024_S2x256 (.inl rfl) rfl)
        (broadcast S2x256 (Scalar.ofBits .f32 0x322BCC77#32))) (ix2 b k) = nk (sl3 x1 b) (slm x3 b) k := by
    refine (norm_ix b (k0_pay11 x3 x1) k).trans ?_
    show _ = Ideal.sqrt (max (∑ e : Fin 1024, K (sl3 x1 b) (slm x3 b) k e * K (sl3 x1 b) (slm x3 b) k e) cEps)
    refine congrArg (fun s => Ideal.sqrt (max s cEps)) (Finset.sum_congr rfl fun e _ => ?_)
    rw [pay11_ix]
  refine (mulf_apply _ _ (ix3 b a k)).trans ?_
  refine congrArg₂ (· * ·) ?_ ?_
  · refine (keepdims_last _ shapeCasts_S2x256_S2x256x1 broadcasts_S2x256x1_S2x256x256 b a k).trans ?_
    exact hA
  · refine (keepdims_mid _ shapeCasts_S2x256_S2x1x256 broadcasts_S2x1x256_S2x256x256 b a k).trans ?_
    exact hK

/-! ## The two masked softmaxes -/

/-- The masked softmax along the LAST axis of a score array s with an additive mask m over that axis, at (b, a, k):
    exp (s + m − max) over the row's sum of the same, the maximum floored at the accumulator's value. -/
theorem pay17_gen (v11 : FVec Ideal S2x256 .f32) (v22 : FVec Ideal S2x256x256 .f32) (a k : Fin 256) :
    k0_pay17 v11 v22 (ix3 b a k)
      = Ideal.div
          (Ideal.exp ((v22 (ix3 b a k) + v11 (ix2 b k))
            - max cBot ((Finset.univ : Finset (Fin 256)).fold max cBot (fun k' => v22 (ix3 b a k') + v11 (ix2 b k')))))
          (∑ k' : Fin 256, Ideal.exp ((v22 (ix3 b a k') + v11 (ix2 b k'))
            - max cBot ((Finset.univ : Finset (Fin 256)).fold max cBot (fun k'' => v22 (ix3 b a k'') + v11 (ix2 b k''))))) := by
  let v41 : FVec Ideal S2x256x256 .f32 :=
    addf v22 (broadcastTo S2x256x256 (shapeCast S2x1x256 v11 shapeCasts_S2x256_S2x1x256) broadcasts_S2x1x256_S2x256x256)
  have h41 : ∀ k', v41 (ix3 b a k') = v22 (ix3 b a k') + v11 (ix2 b k') := fun k' => by
    show v22 (ix3 b a k') + broadcastTo S2x256x256 (shapeCast S2x1x256 v11 shapeCasts_S2x256_S2x1x256) broadcasts_S2x1x256_S2x256x256 (ix3 b a k') = _
    rw [keepdims_mid v11 shapeCasts_S2x256_S2x1x256 broadcasts_S2x1x256_S2x256x256 b a k']
  let v44 : FVec Ideal S2x256 .f32 :=
    maximumf (broadcast S2x256 (Scalar.ofBits .f32 0xFF800000#32))
      (multiReduction .maximumf [2] S2x256 v41 0xFF800000#32 reduces_S2x256x256_S2x256 (.inl rfl) rfl)
  have h44 : v44 (ix2 b a)
      = max cBot ((Finset.univ : Finset (Fin 256)).fold max cBot (fun k' => v22 (ix3 b a k') + v11 (ix2 b k'))) := by
    show max cBot (multiReduction .maximumf [2] S2x256 v41 0xFF800000#32 reduces_S2x256x256_S2x256 (.inl rfl) rfl (ix2 b a)) = _
    rw [multiReduction_maximumf_last v41 0xFF800000#32 reduces_S2x256x256_S2x256 (.inl rfl) rfl b a]
    exact congrArg (max cBot) (congrArg (fun g => Finset.fold max cBot g (Finset.univ : Finset (Fin 256))) (funext fun k' => h41 k'))
  let v48 : FVec Ideal S2x256x256 .f32 :=
    exp (subf v41 (broadcastTo S2x256x256 (shapeCast S2x256x1 v44 shapeCasts_S2x256_S2x256x1) broadcasts_S2x256x1_S2x256x256))
  have h48 : ∀ k', v48 (ix3 b a k') = Ideal.exp ((v22 (ix3 b a k') + v11 (ix2 b k'))
      - max cBot ((Finset.univ : Finset (Fin 256)).fold max cBot (fun k'' => v22 (ix3 b a k'') + v11 (ix2 b k'')))) := fun k' => by
    show Ideal.exp (v41 (ix3 b a k')
      - broadcastTo S2x256x256 (shapeCast S2x256x1 v44 shapeCasts_S2x256_S2x256x1) broadcasts_S2x256x1_S2x256x256 (ix3 b a k')) = _
    rw [keepdims_last v44 shapeCasts_S2x256_S2x256x1 broadcasts_S2x256x1_S2x256x256 b a k', h41, h44]
  show Ideal.div (v48 (ix3 b a k))
      (broadcastTo S2x256x256 (shapeCast S2x256x1 (multiReduction .add [2] S2x256 v48 0x00000000#32 reduces_S2x256x256_S2x256 (.inl rfl) rfl)
        shapeCasts_S2x256_S2x256x1) broadcasts_S2x256x1_S2x256x256 (ix3 b a k)) = _
  rw [keepdims_last (multiReduction .add [2] S2x256 v48 0x00000000#32 reduces_S2x256x256_S2x256 (.inl rfl) rfl)
      shapeCasts_S2x256_S2x256x1 broadcasts_S2x256x1_S2x256x256 b a k,
    multiReduction_add_last v48 0x00000000#32 reduces_S2x256x256_S2x256 (.inl rfl) rfl b a]
  exact congrArg₂ Ideal.div (h48 k) (Finset.sum_congr rfl fun k' _ => h48 k')

/-- The masked softmax along the MIDDLE axis of a score array s with an additive mask m over that axis, at (b, a, k). -/
theorem pay19_gen (v7 : FVec Ideal S2x256 .f32) (v22 : FVec Ideal S2x256x256 .f32) (a k : Fin 256) :
    k0_pay19 v7 v22 (ix3 b a k)
      = Ideal.div
          (Ideal.exp ((v22 (ix3 b a k) + v7 (ix2 b a))
            - max cBot ((Finset.univ : Finset (Fin 256)).fold max cBot (fun a' => v22 (ix3 b a' k) + v7 (ix2 b a')))))
          (∑ a' : Fin 256, Ideal.exp ((v22 (ix3 b a' k) + v7 (ix2 b a'))
            - max cBot ((Finset.univ : Finset (Fin 256)).fold max cBot (fun a'' => v22 (ix3 b a'' k) + v7 (ix2 b a''))))) := by
  let v60 : FVec Ideal S2x256x256 .f32 :=
    addf v22 (broadcastTo S2x256x256 (shapeCast S2x256x1 v7 shapeCasts_S2x256_S2x256x1) broadcasts_S2x256x1_S2x256x256)
  have h60 : ∀ a', v60 (ix3 b a' k) = v22 (ix3 b a' k) + v7 (ix2 b a') := fun a' => by
    show v22 (ix3 b a' k) + broadcastTo S2x256x256 (shapeCast S2x256x1 v7 shapeCasts_S2x256_S2x256x1) broadcasts_S2x256x1_S2x256x256 (ix3 b a' k) = _
    rw [keepdims_last v7 shapeCasts_S2x256_S2x256x1 broadcasts_S2x256x1_S2x256x256 b a' k]
  let v63 : FVec Ideal S2x256 .f32 :=
    maximumf (broadcast S2x256 (Scalar.ofBits .f32 0xFF800000#32))
      (multiReduction .maximumf [1] S2x256 v60 0xFF800000#32 reduces_S2x256x256_S2x256_2 (.inl rfl) rfl)
  have h63 : v63 (ix2 b k)
      = max cBot ((Finset.univ : Finset (Fin 256)).fold max cBot (fun a' => v22 (ix3 b a' k) + v7 (ix2 b a'))) := by
    show max cBot (multiReduction .maximumf [1] S2x256 v60 0xFF800000#32 reduces_S2x256x256_S2x256_2 (.inl rfl) rfl (ix2 b k)) = _
    rw [multiReduction_maximumf_mid v60 0xFF800000#32 reduces_S2x256x256_S2x256_2 (.inl rfl) rfl b k]
    exact congrArg (max cBot) (congrArg (fun g => Finset.fold max cBot g (Finset.univ : Finset (Fin 256))) (funext fun a' => h60 a'))
  let v67 : FVec Ideal S2x256x256 .f32 :=
    exp (subf v60 (broadcastTo S2x256x256 (shapeCast S2x1x256 v63 shapeCasts_S2x256_S2x1x256) broadcasts_S2x1x256_S2x256x256))
  have h67 : ∀ a', v67 (ix3 b a' k) = Ideal.exp ((v22 (ix3 b a' k) + v7 (ix2 b a'))
      - max cBot ((Finset.univ : Finset (Fin 256)).fold max cBot (fun a'' => v22 (ix3 b a'' k) + v7 (ix2 b a'')))) := fun a' => by
    show Ideal.exp (v60 (ix3 b a' k)
      - broadcastTo S2x256x256 (shapeCast S2x1x256 v63 shapeCasts_S2x256_S2x1x256) broadcasts_S2x1x256_S2x256x256 (ix3 b a' k)) = _
    rw [keepdims_mid v63 shapeCasts_S2x256_S2x1x256 broadcasts_S2x1x256_S2x256x256 b a' k, h60, h63]
  show Ideal.div (v67 (ix3 b a k))
      (broadcastTo S2x256x256 (shapeCast S2x1x256 (multiReduction .add [1] S2x256 v67 0x00000000#32 reduces_S2x256x256_S2x256_2 (.inl rfl) rfl)
        shapeCasts_S2x256_S2x1x256) broadcasts_S2x1x256_S2x256x256 (ix3 b a k)) = _
  rw [keepdims_mid (multiReduction .add [1] S2x256 v67 0x00000000#32 reduces_S2x256x256_S2x256_2 (.inl rfl) rfl)
      shapeCasts_S2x256_S2x1x256 broadcasts_S2x1x256_S2x256x256 b a k,
    multiReduction_add_mid v67 0x00000000#32 reduces_S2x256x256_S2x256_2 (.inl rfl) rfl b k]
  exact congrArg₂ Ideal.div (h67 a) (Finset.sum_congr rfl fun a' _ => h67 a')

/-- The softmax along the keys, at (b, a, k). -/
theorem sk_ix (a k : Fin 256) :
    k0_pay17 (k0_pay9 x3) (k0_pay14 x2 x3 x0 x1) (ix3 b a k) = SK (sl3 x0 b) (sl3 x1 b) (slm x2 b) (slm x3 b) a k := by
  refine (pay17_gen b (k0_pay9 x3) (k0_pay14 x2 x3 x0 x1) a k).trans ?_
  simp only [pay14_ix x0 x1 x2 x3 b, pay9_ix x3 b]
  rfl

/-- The softmax along the answers, at (b, a, k): what window 6 stores. -/
theorem out6_ix (a k : Fin 256) :
    k0_pay19 (k0_pay8 x2) (k0_pay14 x2 x3 x0 x1) (ix3 b a k) = SA (sl3 x0 b) (sl3 x1 b) (slm x2 b) (slm x3 b) a k := by
  refine (pay19_gen b (k0_pay8 x2) (k0_pay14 x2 x3 x0 x1) a k).trans ?_
  simp only [pay14_ix x0 x1 x2 x3 b, pay8_ix x2 b]
  rfl

/-- The softmax along the keys with its last two axes swapped, at (b, k, a): what window 7 stores. -/
theorem out7_ix (k a : Fin 256) :
    k0_pay3 (k0_pay17 (k0_pay9 x3) (k0_pay14 x2 x3 x0 x1)) (ix3 b k a)
      = SK (sl3 x0 b) (sl3 x1 b) (slm x2 b) (slm x3 b) a k := by
  refine (transpose_021 (k0_pay17 (k0_pay9 x3) (k0_pay14 x2 x3 x0 x1)) transposes_S2x256x256_p0_2_1_S2x256x256 b k a).trans ?_
  exact sk_ix x0 x1 x2 x3 b a k

/-! ## The cosine scores and the gates -/

/-- The logistic of a vector reads through at an index. -/
theorem logistic_apply {s : Shape} {φ : FTy} (x : FVec Ideal s φ) (i : s.Idx) : logistic x i = Ideal.logistic (x i) := rfl

/-- The gate over the last axis, at (b, a): the logistic of 5 times the row's maximum of quotient plus mask. -/
theorem pay21_gen (v11 : FVec Ideal S2x256 .f32) (v22 v37 : FVec Ideal S2x256x256 .f32) (a : Fin 256) :
    k0_pay21 v11 v22 v37 (ix2 b a)
      = Ideal.logistic (c5 * (Finset.univ : Finset (Fin 256)).fold max cBot
          (fun k => Ideal.div (v22 (ix3 b a k)) (v37 (ix3 b a k)) + v11 (ix2 b k))) := by
  let v79 : FVec Ideal S2x256x256 .f32 :=
    addf (k0_pay16 v22 v37) (broadcastTo S2x256x256 (shapeCast S2x1x256 v11 shapeCasts_S2x256_S2x1x256) broadcasts_S2x1x256_S2x256x256)
  have h79 : ∀ k, v79 (ix3 b a k) = Ideal.div (v22 (ix3 b a k)) (v37 (ix3 b a k)) + v11 (ix2 b k) := fun k => by
    show Ideal.div (v22 (ix3 b a k)) (v37 (ix3 b a k))
      + broadcastTo S2x256x256 (shapeCast S2x1x256 v11 shapeCasts_S2x256_S2x1x256) broadcasts_S2x1x256_S2x256x256 (ix3 b a k) = _
    rw [keepdims_mid v11 shapeCasts_S2x256_S2x1x256 broadcasts_S2x1x256_S2x256x256 b a k]
  refine (logistic_apply _ (ix2 b a)).trans (congrArg Ideal.logistic ?_)
  refine (mulf_apply _ _ (ix2 b a)).trans (congrArg (fun m : EReal => c5 * m) ?_)
  refine (multiReduction_maximumf_last v79 0xFF800000#32 reduces_S2x256x256_S2x256 (.inl rfl) rfl b a).trans ?_
  exact congrArg (fun g => Finset.fold max cBot g (Finset.univ : Finset (Fin 256))) (funext fun k => h79 k)

/-- The cosine scores plus the answers' additive mask, at (b, a, k). -/
theorem pay22_gen (v7 : FVec Ideal S2x256 .f32) (v22 v37 : FVec Ideal S2x256x256 .f32) (a k : Fin 256) :
    k0_pay22 v7 v22 v37 (ix3 b a k) = Ideal.div (v22 (ix3 b a k)) (v37 (ix3 b a k)) + v7 (ix2 b a) := by
  show Ideal.div (v22 (ix3 b a k)) (v37 (ix3 b a k))
    + broadcastTo S2x256x256 (shapeCast S2x256x1 v7 shapeCasts_S2x256_S2x256x1) broadcasts_S2x256x1_S2x256x256 (ix3 b a k) = _
  rw [keepdims_last v7 shapeCasts_S2x256_S2x256x1 broadcasts_S2x256x1_S2x256x256 b a k]

/-- The gate over the middle axis, at (b, k): the logistic of 5 times the column's maximum. -/
theorem pay1_gen (v86 : FVec Ideal S2x256x256 .f32) (k : Fin 256) :
    k0_pay1 v86 (ix2 b k)
      = Ideal.logistic (c5 * (Finset.univ : Finset (Fin 256)).fold max cBot (fun a => v86 (ix3 b a k))) := by
  refine (logistic_apply _ (ix2 b k)).trans (congrArg Ideal.logistic ?_)
  refine (mulf_apply _ _ (ix2 b k)).trans (congrArg (fun m : EReal => c5 * m) ?_)
  exact multiReduction_maximumf_mid v86 0xFF800000#32 reduces_S2x256x256_S2x256_2 (.inl rfl) rfl b k

/-- The keys' gate of the answers, at (b, a). -/
theorem bk_ix (a : Fin 256) :
    k0_pay21 (k0_pay9 x3) (k0_pay14 x2 x3 x0 x1) (k0_pay15 x2 x3 x0 x1) (ix2 b a)
      = bk (sl3 x0 b) (sl3 x1 b) (slm x2 b) (slm x3 b) a := by
  refine (pay21_gen b (k0_pay9 x3) (k0_pay14 x2 x3 x0 x1) (k0_pay15 x2 x3 x0 x1) a).trans ?_
  simp only [pay14_ix x0 x1 x2 x3 b, pay15_ix x0 x1 x2 x3 b, pay9_ix x3 b]
  rfl

/-- The answers' gate of the keys, at (b, k). -/
theorem ba_ix (k : Fin 256) :
    k0_pay1 (k0_pay22 (k0_pay8 x2) (k0_pay14 x2 x3 x0 x1) (k0_pay15 x2 x3 x0 x1)) (ix2 b k)
      = ba (sl3 x0 b) (sl3 x1 b) (slm x2 b) (slm x3 b) k := by
  refine (pay1_gen b (k0_pay22 (k0_pay8 x2) (k0_pay14 x2 x3 x0 x1) (k0_pay15 x2 x3 x0 x1)) k).trans ?_
  simp only [pay22_gen b, pay14_ix x0 x1 x2 x3 b, pay15_ix x0 x1 x2 x3 b, pay8_ix x2 b]
  rfl

/-- The answers' gate with a unit middle axis, at (b, 0, k): what window 8 stores. -/
theorem out8_ix (k : Fin 256) :
    k0_pay4 (k0_pay22 (k0_pay8 x2) (k0_pay14 x2 x3 x0 x1) (k0_pay15 x2 x3 x0 x1)) (ix3 b (0 : Fin 1) k)
      = ba (sl3 x0 b) (sl3 x1 b) (slm x2 b) (slm x3 b) k := by
  refine (unsqueeze_mid (k0_pay1 (k0_pay22 (k0_pay8 x2) (k0_pay14 x2 x3 x0 x1) (k0_pay15 x2 x3 x0 x1)))
    shapeCasts_S2x256_S2x1x256 b k).trans ?_
  exact ba_ix x0 x1 x2 x3 b k

/-- The keys' gate with a unit middle axis, at (b, 0, a): what window 9 stores. -/
theorem out9_ix (a : Fin 256) :
    k0_pay5 (k0_pay21 (k0_pay9 x3) (k0_pay14 x2 x3 x0 x1) (k0_pay15 x2 x3 x0 x1)) (ix3 b (0 : Fin 1) a)
      = bk (sl3 x0 b) (sl3 x1 b) (slm x2 b) (slm x3 b) a := by
  refine (unsqueeze_mid (k0_pay21 (k0_pay9 x3) (k0_pay14 x2 x3 x0 x1) (k0_pay15 x2 x3 x0 x1))
    shapeCasts_S2x256_S2x1x256 b a).trans ?_
  exact bk_ix x0 x1 x2 x3 b a

/-! ## The attended sequences, their pooled maxima and the feature vector -/

/-- The keys attended by the softmax along the keys, masked by the answers' mask, at (b, a, e). -/
theorem pay18_gen (v1 v11 : FVec Ideal S2x256 .f32) (v21 : FVec Ideal S2x256x1024 .bf16) (v22 : FVec Ideal S2x256x256 .f32)
    (a : Fin 256) (e : Fin 1024) :
    k0_pay18 v1 v11 v21 v22 (ix3 b a e)
      = (∑ k : Fin 256, (k0_pay17 v11 v22 (ix3 b a k) : EReal) * (v21 (ix3 b k e) : EReal)) * (v1 (ix2 b a) : EReal) := by
  show (matmul dot_S2x256x256_S2x256x1024_S2x256x1024_2_1_1_2_0_0 none (truncf .bf16 (k0_pay17 v11 v22) bitsLt_bf16_f32) v21
        (constant S2x256x1024 .f32 0x00000000#32) (ix3 b a e) : EReal)
      * (broadcastTo S2x256x1024 (shapeCast S2x256x1 v1 shapeCasts_S2x256_S2x256x1) broadcasts_S2x256x1_S2x256x1024 (ix3 b a e) : EReal) = _
  rw [matmul_keys (truncf .bf16 (k0_pay17 v11 v22) bitsLt_bf16_f32) v21 b a e,
    keepdims_last v1 shapeCasts_S2x256_S2x256x1 broadcasts_S2x256x1_S2x256x1024 b a e]
  rfl

/-- The answers attended by the softmax along the answers, masked by the keys' mask, at (b, k, e). -/
theorem pay20_gen (v3 v7 : FVec Ideal S2x256 .f32) (v20 : FVec Ideal S2x256x1024 .bf16) (v22 : FVec Ideal S2x256x256 .f32)
    (k : Fin 256) (e : Fin 1024) :
    k0_pay20 v3 v7 v20 v22 (ix3 b k e)
      = (∑ a : Fin 256, (k0_pay19 v7 v22 (ix3 b a k) : EReal) * (v20 (ix3 b a e) : EReal)) * (v3 (ix2 b k) : EReal) := by
  show (matmul dot_S2x256x256_S2x256x1024_S2x256x1024_1_1_2_2_0_0 none (truncf .bf16 (k0_pay19 v7 v22) bitsLt_bf16_f32) v20
        (constant S2x256x1024 .f32 0x00000000#32) (ix3 b k e) : EReal)
      * (broadcastTo S2x256x1024 (shapeCast S2x256x1 v3 shapeCasts_S2x256_S2x256x1) broadcasts_S2x256x1_S2x256x1024 (ix3 b k e) : EReal) = _
  rw [matmul_answers (truncf .bf16 (k0_pay19 v7 v22) bitsLt_bf16_f32) v20 b k e,
    keepdims_last v3 shapeCasts_S2x256_S2x256x1 broadcasts_S2x256x1_S2x256x1024 b k e]
  rfl

/-- The attended keys, masked, at (b, a, e). -/
theorem att18_ix (a : Fin 256) (e : Fin 1024) :
    k0_pay18 (k0_pay6 x2) (k0_pay9 x3) (k0_pay13 x3 x1) (k0_pay14 x2 x3 x0 x1) (ix3 b a e)
      = (∑ k : Fin 256, SK (sl3 x0 b) (sl3 x1 b) (slm x2 b) (slm x3 b) a k * K (sl3 x1 b) (slm x3 b) k e) * slm x2 b a := by
  refine (pay18_gen b (k0_pay6 x2) (k0_pay9 x3) (k0_pay13 x3 x1) (k0_pay14 x2 x3 x0 x1) a e).trans ?_
  refine congrArg₂ (· * ·) (Finset.sum_congr rfl fun k _ => ?_) (pay6_ix x2 b a)
  exact congrArg₂ (· * ·) (sk_ix x0 x1 x2 x3 b a k) (pay13_ix x1 x3 b k e)

/-- The attended answers, masked, at (b, k, e). -/
theorem att20_ix (k : Fin 256) (e : Fin 1024) :
    k0_pay20 (k0_pay7 x3) (k0_pay8 x2) (k0_pay12 x2 x0) (k0_pay14 x2 x3 x0 x1) (ix3 b k e)
      = (∑ a : Fin 256, SA (sl3 x0 b) (sl3 x1 b) (slm x2 b) (slm x3 b) a k * A (sl3 x0 b) (slm x2 b) a e) * slm x3 b k := by
  refine (pay20_gen b (k0_pay7 x3) (k0_pay8 x2) (k0_pay12 x2 x0) (k0_pay14 x2 x3 x0 x1) k e).trans ?_
  refine congrArg₂ (· * ·) (Finset.sum_congr rfl fun a _ => ?_) (pay7_ix x3 b k)
  exact congrArg₂ (· * ·) (out6_ix x0 x1 x2 x3 b a k) (pay12_ix x0 x2 b a e)

/-- The feature vector of two gated sequences, at (b, 0, j): below 1024 the pooled maximum over the tokens of the second
    sequence times its gate, from 1024 on that of the first. -/
theorem pay2_gen (v57 v76 : FVec Ideal S2x256x1024 .f32) (v83 : FVec Ideal S2x256 .f32) (v86 : FVec Ideal S2x256x256 .f32)
    (j : Fin 2048) :
    k0_pay2 v57 v76 v83 v86 (ix3 b (0 : Fin 1) j)
      = if hj : j.val < 1024 then
          (Finset.univ : Finset (Fin 256)).fold max cBot (fun k => v76 (ix3 b k ⟨j.val, hj⟩) * k0_pay1 v86 (ix2 b k))
        else
          (Finset.univ : Finset (Fin 256)).fold max cBot
            (fun a => v57 (ix3 b a ⟨j.val - 1024, by have := j.isLt; omega⟩) * v83 (ix2 b a)) := by
  let v93 : FVec Ideal S2x256x1024 .f32 :=
    mulf v57 (broadcastTo S2x256x1024 (shapeCast S2x256x1 v83 shapeCasts_S2x256_S2x256x1) broadcasts_S2x256x1_S2x256x1024)
  let v96 : FVec Ideal S2x256x1024 .f32 :=
    mulf v76 (broadcastTo S2x256x1024 (shapeCast S2x256x1 (k0_pay1 v86) shapeCasts_S2x256_S2x256x1) broadcasts_S2x256x1_S2x256x1024)
  let v97 : FVec Ideal S2x1024 .f32 := multiReduction .maximumf [1] S2x1024 v93 0xFF800000#32 reduces_S2x256x1024_S2x1024 (.inl rfl) rfl
  let v98 : FVec Ideal S2x1024 .f32 := multiReduction .maximumf [1] S2x1024 v96 0xFF800000#32 reduces_S2x256x1024_S2x1024 (.inl rfl) rfl
  have h93 : ∀ (a : Fin 256) (e : Fin 1024), v93 (ix3 b a e) = v57 (ix3 b a e) * v83 (ix2 b a) := fun a e => by
    show v57 (ix3 b a e)
      * broadcastTo S2x256x1024 (shapeCast S2x256x1 v83 shapeCasts_S2x256_S2x256x1) broadcasts_S2x256x1_S2x256x1024 (ix3 b a e) = _
    rw [keepdims_last v83 shapeCasts_S2x256_S2x256x1 broadcasts_S2x256x1_S2x256x1024 b a e]
  have h96 : ∀ (k : Fin 256) (e : Fin 1024), v96 (ix3 b k e) = v76 (ix3 b k e) * k0_pay1 v86 (ix2 b k) := fun k e => by
    show v76 (ix3 b k e)
      * broadcastTo S2x256x1024 (shapeCast S2x256x1 (k0_pay1 v86) shapeCasts_S2x256_S2x256x1) broadcasts_S2x256x1_S2x256x1024 (ix3 b k e) = _
    rw [keepdims_last (k0_pay1 v86) shapeCasts_S2x256_S2x256x1 broadcasts_S2x256x1_S2x256x1024 b k e]
  have h97 : ∀ e : Fin 1024, v97 (ix2 b e)
      = (Finset.univ : Finset (Fin 256)).fold max cBot (fun a => v57 (ix3 b a e) * v83 (ix2 b a)) := fun e => by
    refine (multiReduction_maximumf_mid v93 0xFF800000#32 reduces_S2x256x1024_S2x1024 (.inl rfl) rfl b e).trans ?_
    exact congrArg (fun g => Finset.fold max cBot g (Finset.univ : Finset (Fin 256))) (funext fun a => h93 a e)
  have h98 : ∀ e : Fin 1024, v98 (ix2 b e)
      = (Finset.univ : Finset (Fin 256)).fold max cBot (fun k => v76 (ix3 b k e) * k0_pay1 v86 (ix2 b k)) := fun e => by
    refine (multiReduction_maximumf_mid v96 0xFF800000#32 reduces_S2x256x1024_S2x1024 (.inl rfl) rfl b e).trans ?_
    exact congrArg (fun g => Finset.fold max cBot g (Finset.univ : Finset (Fin 256))) (funext fun k => h96 k e)
  refine (unsqueeze_mid (concatenate S2x2048 1 [⟨S2x1024, v98⟩, ⟨S2x1024, v97⟩] concatenates_S2x1024_S2x1024_S2x2048_d1)
    shapeCasts_S2x2048_S2x1x2048 b j).trans ?_
  refine (concat_axis1 v98 v97 concatenates_S2x1024_S2x1024_S2x2048_d1 b j).trans ?_
  by_cases hj : j.val < 1024
  · rw [dif_pos hj, dif_pos hj]
    exact h98 _
  · rw [dif_neg hj, dif_neg hj]
    exact h97 _

/-- The feature vector, at (b, 0, j): what window 4 stores. -/
theorem out4_ix (j : Fin 2048) :
    k0_pay2 (k0_pay18 (k0_pay6 x2) (k0_pay9 x3) (k0_pay13 x3 x1) (k0_pay14 x2 x3 x0 x1))
        (k0_pay20 (k0_pay7 x3) (k0_pay8 x2) (k0_pay12 x2 x0) (k0_pay14 x2 x3 x0 x1))
        (k0_pay21 (k0_pay9 x3) (k0_pay14 x2 x3 x0 x1) (k0_pay15 x2 x3 x0 x1))
        (k0_pay22 (k0_pay8 x2) (k0_pay14 x2 x3 x0 x1) (k0_pay15 x2 x3 x0 x1)) (ix3 b (0 : Fin 1) j)
      = f (sl3 x0 b) (sl3 x1 b) (slm x2 b) (slm x3 b) j := by
  refine (pay2_gen b _ _ _ _ j).trans ?_
  unfold f
  by_cases hj : j.val < 1024
  · rw [dif_pos hj, dif_pos hj]
    show _ = (Finset.univ : Finset (Fin 256)).fold max cBot
      (fun k => U (sl3 x0 b) (sl3 x1 b) (slm x2 b) (slm x3 b) k ⟨j.val, hj⟩)
    refine congrArg (fun g => Finset.fold max cBot g (Finset.univ : Finset (Fin 256))) (funext fun k => ?_)
    exact congrArg₂ (· * ·) (att20_ix x0 x1 x2 x3 b k _) (ba_ix x0 x1 x2 x3 b k)
  · rw [dif_neg hj, dif_neg hj]
    show _ = (Finset.univ : Finset (Fin 256)).fold max cBot
      (fun a => V (sl3 x0 b) (sl3 x1 b) (slm x2 b) (slm x3 b) a ⟨j.val - 1024, by have := j.isLt; omega⟩)
    refine congrArg (fun g => Finset.fold max cBot g (Finset.univ : Finset (Fin 256))) (funext fun a => ?_)
    exact congrArg₂ (· * ·) (att18_ix x0 x1 x2 x3 b a _) (bk_ix x0 x1 x2 x3 b a)

end Cert.KernelIdeal.KValue

end
-- ==== Proof.KernelValue.lean ====
/-
  The kernel's run, read. At each grid point the body leaves in each output window's buffer the specification's function of the two
  examples the point holds (the body's payloads read at an index, and the input blocks read as examples of the arguments); the 64
  blocks tile each output array, so after the run each output array is the specification's whole-array function of the argument
  arrays. The first result leaves the region with a unit middle axis, which the host reshape after the region drops.
-/
import proofs.«169121_j9311489098350_1_alg».proof.Proof.BlocksGeom
import proofs.«169121_j9311489098350_1_alg».proof.Proof.KernelBody
import proofs.«169121_j9311489098350_1_alg».proof.Proof.LibMidAxisRows

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo Idealize.ShloMosaic.MidAxisRows CoAttn
open Idealize.ShloMosaic.Pipeline (Dat Cfg Window)

variable (m : (ℓ : Loc nD τ sig) → Buf (Elt Ideal) ℓ) (ρ : Dev nD → PrngReg)

/-- The four argument arrays on core c: the answers, the keys, and their masks. -/
abbrev aAns (c : Dev nD) : S128x256x1024.Idx → EReal := m ((c : Thread nD τ).loc main_arg0)
abbrev aMa (c : Dev nD) : S128x256.Idx → EReal := m ((c : Thread nD τ).loc main_arg1)
abbrev aKey (c : Dev nD) : S128x256x1024.Idx → EReal := m ((c : Thread nD τ).loc main_arg2)
abbrev aMk (c : Dev nD) : S128x256.Idx → EReal := m ((c : Thread nD τ).loc main_arg3)

/-- The joined features with the unit middle axis the kernel's first output array has. -/
def gF3 (ans key : S128x256x1024.Idx → EReal) (mans mkey : S128x256.Idx → EReal) : S128x1x2048.Idx → EReal := fun i =>
  f (sl3 ans (i 0)) (sl3 key (i 0)) (sl2 mans (i 0)) (sl2 mkey (i 0)) (i 2)

/-- WHAT POINT t WRITES BACK through output window 5 is block t of the scores of the argument arrays. -/
theorem flushed5_eq (c : Dev nD) (t : Fin cfg0.N) :
    (dats m 0 c).flushed 5 t = ((cfg0.win 5).blk t).view.read (Elt Ideal) (gZ (aAns m c) (aKey m c) (aMa m c) (aMk m c)) := by
  show (cfg0.win 5).cut (grid0.coords t) ((dats m 0 c).after 5 t) = _
  rw [after0_5]
  unfold out0_5
  rw [View.canon_unit_zero hz3]
  simp only [View.ld_unit_zero (S := S2x256x1024) hz3, View.ld_unit_zero (S := S2x1x256) hz3]
  funext y
  obtain ⟨b', a, k, rfl⟩ : ∃ (b' : Fin 2) (a k : Fin 256), y = ix3 b' a k := ⟨y 0, y 1, y 2, eq_ix3 y⟩
  show k0_pay14 (iblk m c 2 t) (iblk m c 3 t) (iblk m c 0 t) (iblk m c 1 t) (ix3 b' a k)
    = gZ (aAns m c) (aKey m c) (aMa m c) (aMk m c) (((cfg0.win 5).blk t).view.emb (ix3 b' a k))
  rw [emb5]
  refine (out5_ix (iblk m c 0 t) (iblk m c 1 t) (iblk m c 2 t) (iblk m c 3 t) b' a k).trans ?_
  rw [iblk0_sl, iblk1_sl, iblk2_sl, iblk3_sl]
  rfl

/-- So the array of output window 5 ends holding the scores of the arguments: its blocks tile it. -/
theorem final5 (c : Dev nD) : (dats m 0 c).arrAt 5 cfg0.N = gZ (aAns m c) (aKey m c) (aMa m c) (aMk m c) :=
  (dats m 0 c).arrAt_eq_of_cover 5 _ (fun t _ => flushed5_eq m c t) cover5

/-- WHAT POINT t WRITES BACK through output window 6 is block t of the softmax along the answers of the argument arrays. -/
theorem flushed6_eq (c : Dev nD) (t : Fin cfg0.N) :
    (dats m 0 c).flushed 6 t = ((cfg0.win 6).blk t).view.read (Elt Ideal) (gSA (aAns m c) (aKey m c) (aMa m c) (aMk m c)) := by
  show (cfg0.win 6).cut (grid0.coords t) ((dats m 0 c).after 6 t) = _
  rw [after0_6]
  unfold out0_6
  rw [View.canon_unit_zero hz3]
  simp only [View.ld_unit_zero (S := S2x256x1024) hz3, View.ld_unit_zero (S := S2x1x256) hz3]
  funext y
  obtain ⟨b', a, k, rfl⟩ : ∃ (b' : Fin 2) (a k : Fin 256), y = ix3 b' a k := ⟨y 0, y 1, y 2, eq_ix3 y⟩
  show k0_pay19 (k0_pay8 (iblk m c 2 t)) (k0_pay14 (iblk m c 2 t) (iblk m c 3 t) (iblk m c 0 t) (iblk m c 1 t)) (ix3 b' a k)
    = gSA (aAns m c) (aKey m c) (aMa m c) (aMk m c) (((cfg0.win 6).blk t).view.emb (ix3 b' a k))
  rw [emb6]
  refine (out6_ix (iblk m c 0 t) (iblk m c 1 t) (iblk m c 2 t) (iblk m c 3 t) b' a k).trans ?_
  rw [iblk0_sl, iblk1_sl, iblk2_sl, iblk3_sl]
  rfl

/-- So the array of output window 6 ends holding the softmax along the answers of the arguments: its blocks tile it. -/
theorem final6 (c : Dev nD) : (dats m 0 c).arrAt 6 cfg0.N = gSA (aAns m c) (aKey m c) (aMa m c) (aMk m c) :=
  (dats m 0 c).arrAt_eq_of_cover 6 _ (fun t _ => flushed6_eq m c t) cover6

/-- WHAT POINT t WRITES BACK through output window 7 is block t of the transposed softmax along the keys of the argument arrays. -/
theorem flushed7_eq (c : Dev nD) (t : Fin cfg0.N) :
    (dats m 0 c).flushed 7 t = ((cfg0.win 7).blk t).view.read (Elt Ideal) (gSKT (aAns m c) (aKey m c) (aMa m c) (aMk m c)) := by
  show (cfg0.win 7).cut (grid0.coords t) ((dats m 0 c).after 7 t) = _
  rw [after0_7]
  unfold out0_7
  rw [View.canon_unit_zero hz3]
  simp only [View.ld_unit_zero (S := S2x256x1024) hz3, View.ld_unit_zero (S := S2x1x256) hz3]
  funext y
  obtain ⟨b', k, a, rfl⟩ : ∃ (b' : Fin 2) (k a : Fin 256), y = ix3 b' k a := ⟨y 0, y 1, y 2, eq_ix3 y⟩
  show k0_pay3 (k0_pay17 (k0_pay9 (iblk m c 3 t)) (k0_pay14 (iblk m c 2 t) (iblk m c 3 t) (iblk m c 0 t) (iblk m c 1 t))) (ix3 b' k a)
    = gSKT (aAns m c) (aKey m c) (aMa m c) (aMk m c) (((cfg0.win 7).blk t).view.emb (ix3 b' k a))
  rw [emb7]
  refine (out7_ix (iblk m c 0 t) (iblk m c 1 t) (iblk m c 2 t) (iblk m c 3 t) b' k a).trans ?_
  rw [iblk0_sl, iblk1_sl, iblk2_sl, iblk3_sl]
  rfl

/-- So the array of output window 7 ends holding the transposed softmax along the keys of the arguments: its blocks tile it. -/
theorem final7 (c : Dev nD) : (dats m 0 c).arrAt 7 cfg0.N = gSKT (aAns m c) (aKey m c) (aMa m c) (aMk m c) :=
  (dats m 0 c).arrAt_eq_of_cover 7 _ (fun t _ => flushed7_eq m c t) cover7

/-- WHAT POINT t WRITES BACK through output window 8 is block t of the gate over the keys' tokens of the argument arrays. -/
theorem flushed8_eq (c : Dev nD) (t : Fin cfg0.N) :
    (dats m 0 c).flushed 8 t = ((cfg0.win 8).blk t).view.read (Elt Ideal) (gBa (aAns m c) (aKey m c) (aMa m c) (aMk m c)) := by
  show (cfg0.win 8).cut (grid0.coords t) ((dats m 0 c).after 8 t) = _
  rw [after0_8]
  unfold out0_8
  rw [View.canon_unit_zero hz3]
  simp only [View.ld_unit_zero (S := S2x256x1024) hz3, View.ld_unit_zero (S := S2x1x256) hz3]
  funext y
  obtain ⟨b', z, k, rfl⟩ : ∃ (b' : Fin 2) (z : Fin 1) (k : Fin 256), y = ix3 b' z k := ⟨y 0, y 1, y 2, eq_ix3 y⟩
  obtain rfl : z = 0 := Subsingleton.elim _ _
  show k0_pay4 (k0_pay22 (k0_pay8 (iblk m c 2 t)) (k0_pay14 (iblk m c 2 t) (iblk m c 3 t) (iblk m c 0 t) (iblk m c 1 t)) (k0_pay15 (iblk m c 2 t) (iblk m c 3 t) (iblk m c 0 t) (iblk m c 1 t))) (ix3 b' (0 : Fin 1) k)
    = gBa (aAns m c) (aKey m c) (aMa m c) (aMk m c) (((cfg0.win 8).blk t).view.emb (ix3 b' (0 : Fin 1) k))
  rw [emb8]
  refine (out8_ix (iblk m c 0 t) (iblk m c 1 t) (iblk m c 2 t) (iblk m c 3 t) b' k).trans ?_
  rw [iblk0_sl, iblk1_sl, iblk2_sl, iblk3_sl]
  rfl

/-- So the array of output window 8 ends holding the gate over the keys' tokens of the arguments: its blocks tile it. -/
theorem final8 (c : Dev nD) : (dats m 0 c).arrAt 8 cfg0.N = gBa (aAns m c) (aKey m c) (aMa m c) (aMk m c) :=
  (dats m 0 c).arrAt_eq_of_cover 8 _ (fun t _ => flushed8_eq m c t) cover8

/-- WHAT POINT t WRITES BACK through output window 9 is block t of the gate over the answers' tokens of the argument arrays. -/
theorem flushed9_eq (c : Dev nD) (t : Fin cfg0.N) :
    (dats m 0 c).flushed 9 t = ((cfg0.win 9).blk t).view.read (Elt Ideal) (gBk (aAns m c) (aKey m c) (aMa m c) (aMk m c)) := by
  show (cfg0.win 9).cut (grid0.coords t) ((dats m 0 c).after 9 t) = _
  rw [after0_9]
  unfold out0_9
  rw [View.canon_unit_zero hz3]
  simp only [View.ld_unit_zero (S := S2x256x1024) hz3, View.ld_unit_zero (S := S2x1x256) hz3]
  funext y
  obtain ⟨b', z, a, rfl⟩ : ∃ (b' : Fin 2) (z : Fin 1) (a : Fin 256), y = ix3 b' z a := ⟨y 0, y 1, y 2, eq_ix3 y⟩
  obtain rfl : z = 0 := Subsingleton.elim _ _
  show k0_pay5 (k0_pay21 (k0_pay9 (iblk m c 3 t)) (k0_pay14 (iblk m c 2 t) (iblk m c 3 t) (iblk m c 0 t) (iblk m c 1 t)) (k0_pay15 (iblk m c 2 t) (iblk m c 3 t) (iblk m c 0 t) (iblk m c 1 t))) (ix3 b' (0 : Fin 1) a)
    = gBk (aAns m c) (aKey m c) (aMa m c) (aMk m c) (((cfg0.win 9).blk t).view.emb (ix3 b' (0 : Fin 1) a))
  rw [emb9]
  refine (out9_ix (iblk m c 0 t) (iblk m c 1 t) (iblk m c 2 t) (iblk m c 3 t) b' a).trans ?_
  rw [iblk0_sl, iblk1_sl, iblk2_sl, iblk3_sl]
  rfl

/-- So the array of output window 9 ends holding the gate over the answers' tokens of the arguments: its blocks tile it. -/
theorem final9 (c : Dev nD) : (dats m 0 c).arrAt 9 cfg0.N = gBk (aAns m c) (aKey m c) (aMa m c) (aMk m c) :=
  (dats m 0 c).arrAt_eq_of_cover 9 _ (fun t _ => flushed9_eq m c t) cover9

/-- WHAT POINT t WRITES BACK through output window 4 is block t of the joined features of the argument arrays. -/
theorem flushed4_eq (c : Dev nD) (t : Fin cfg0.N) :
    (dats m 0 c).flushed 4 t = ((cfg0.win 4).blk t).view.read (Elt Ideal) (gF3 (aAns m c) (aKey m c) (aMa m c) (aMk m c)) := by
  show (cfg0.win 4).cut (grid0.coords t) ((dats m 0 c).after 4 t) = _
  rw [after0_4]
  unfold out0_4
  rw [View.canon_unit_zero hz3]
  simp only [View.ld_unit_zero (S := S2x256x1024) hz3, View.ld_unit_zero (S := S2x1x256) hz3]
  funext y
  obtain ⟨b', z, j, rfl⟩ : ∃ (b' : Fin 2) (z : Fin 1) (j : Fin 2048), y = ix3 b' z j := ⟨y 0, y 1, y 2, eq_ix3 y⟩
  obtain rfl : z = 0 := Subsingleton.elim _ _
  show k0_pay2 (k0_pay18 (k0_pay6 (iblk m c 2 t)) (k0_pay9 (iblk m c 3 t)) (k0_pay13 (iblk m c 3 t) (iblk m c 1 t)) (k0_pay14 (iblk m c 2 t) (iblk m c 3 t) (iblk m c 0 t) (iblk m c 1 t))) (k0_pay20 (k0_pay7 (iblk m c 3 t)) (k0_pay8 (iblk m c 2 t)) (k0_pay12 (iblk m c 2 t) (iblk m c 0 t)) (k0_pay14 (iblk m c 2 t) (iblk m c 3 t) (iblk m c 0 t) (iblk m c 1 t))) (k0_pay21 (k0_pay9 (iblk m c 3 t)) (k0_pay14 (iblk m c 2 t) (iblk m c 3 t) (iblk m c 0 t) (iblk m c 1 t)) (k0_pay15 (iblk m c 2 t) (iblk m c 3 t) (iblk m c 0 t) (iblk m c 1 t))) (k0_pay22 (k0_pay8 (iblk m c 2 t)) (k0_pay14 (iblk m c 2 t) (iblk m c 3 t) (iblk m c 0 t) (iblk m c 1 t)) (k0_pay15 (iblk m c 2 t) (iblk m c 3 t) (iblk m c 0 t) (iblk m c 1 t))) (ix3 b' (0 : Fin 1) j)
    = gF3 (aAns m c) (aKey m c) (aMa m c) (aMk m c) (((cfg0.win 4).blk t).view.emb (ix3 b' (0 : Fin 1) j))
  rw [emb4]
  refine (out4_ix (iblk m c 0 t) (iblk m c 1 t) (iblk m c 2 t) (iblk m c 3 t) b' j).trans ?_
  rw [iblk0_sl, iblk1_sl, iblk2_sl, iblk3_sl]
  rfl

/-- So the array of output window 4 ends holding the joined features of the arguments: its blocks tile it. -/
theorem final4 (c : Dev nD) : (dats m 0 c).arrAt 4 cfg0.N = gF3 (aAns m c) (aKey m c) (aMa m c) (aMk m c) :=
  (dats m 0 c).arrAt_eq_of_cover 4 _ (fun t _ => flushed4_eq m c t) cover4

/-! ## The host reshape after the region -/

/-- The first result: the reshape of output window 4's array drops its unit middle axis. -/
theorem tail_F (c : Dev nD) :
    Pipeline.afterTail₀ cfgs (dats m) 0 (V0 m) [hostOps1] c main_v3 = gF (aAns m c) (aKey m c) (aMa m c) (aMk m c) := by
  unfold Pipeline.afterTail₀
  show StableHlo.after hostOps1 _ (Proc.devRef .tc main_v3) = _
  after_results
  rw [Pipeline.withArrays_arr spec0 launch0.win.arr_inj c _ _ 4]
  rw [final4]
  funext i
  obtain ⟨b, j, rfl⟩ : ∃ (b : Fin 128) (j : Fin 2048), i = ix2 b j := ⟨i 0, i 1, eq_ix2 i⟩
  exact squeeze_mid (gF3 (aAns m c) (aKey m c) (aMa m c) (aMk m c)) shapeCasts_S128x1x2048_S128x2048 b j

/-! ## The run -/

/-- Every weakly fair execution of the kernel's program terminates with the six results at the specification's functions of
    the argument arrays, and the arguments unchanged. -/
theorem run : θ_run defs (onTc (τ := τ) (main (F := Ideal))) ⟨m, fun _ => 0, ρ⟩ fun r => ∀ c : Dev nD,
      r.2.mem ((c.tc : Thread nD τ).loc main_v3) = gF (aAns m c) (aKey m c) (aMa m c) (aMk m c)
      ∧ r.2.mem ((c.tc : Thread nD τ).loc main_v2_1) = gZ (aAns m c) (aKey m c) (aMa m c) (aMk m c)
      ∧ r.2.mem ((c.tc : Thread nD τ).loc main_v2_2) = gSA (aAns m c) (aKey m c) (aMa m c) (aMk m c)
      ∧ r.2.mem ((c.tc : Thread nD τ).loc main_v2_3) = gSKT (aAns m c) (aKey m c) (aMa m c) (aMk m c)
      ∧ r.2.mem ((c.tc : Thread nD τ).loc main_v2_4) = gBa (aAns m c) (aKey m c) (aMa m c) (aMk m c)
      ∧ r.2.mem ((c.tc : Thread nD τ).loc main_v2_5) = gBk (aAns m c) (aKey m c) (aMa m c) (aMk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_F m c),
      ((h c).1 5).trans (final5 m c),
      ((h c).1 6).trans (final6 m c),
      ((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KValue

end
-- ==== Proof.RefBase.lean ====
/-
  The reference's first stages, read at one example of the batch: the masked sequences, the additive masks and the score
  matrix at example `b` are the specification's `A`, `K`, `mai`, `mki` and `Z` of that example's slices of the arguments.
-/
import proofs.«169121_j9311489098350_1_alg».proof.Proof.ReadP
import proofs.«169121_j9311489098350_1_alg».proof.Proof.Spec

noncomputable section

namespace Cert.ReferenceIdeal.RefValue

open Cert.ReferenceIdeal Cert.ReferenceIdeal.Read Idealize.ShloMosaic Idealize.ShloMosaic.ValueIdx CoAttn

variable (x0 x2 : (⟨S128x256x1024, .f32⟩ : BufTy).Contents (Elt Ideal)) (x1 x3 : (⟨S128x256, .f32⟩ : BufTy).Contents (Elt Ideal))

/-- A mask put beside every feature of its token: the two broadcasts read, at (b, a, e), the mask at (b, a). -/
theorem idx_v14_v15 (b : Fin 128) (a : Fin 256) (e : Fin 1024) : idx_main_v14 (idx_main_v15 (ix3 b a e)) = ix2 b a :=
  funext fun d => Fin.ext (by match d with | ⟨0, _⟩ => rfl | ⟨1, _⟩ => rfl)

/-- The masked answers at example `b`. -/
theorem ref_A (b : Fin 128) (a : Fin 256) (e : Fin 1024) :
    val_main_v16 (F := Ideal) x0 x1 (ix3 b a e) = A (sl3 x0 b) (sl2 x1 b) a e := by
  rw [val_main_v16_apply, val_main_v15_apply, val_main_v14_apply, idx_v14_v15]
  rfl

/-- The masked keys at example `b`. -/
theorem ref_K (b : Fin 128) (k : Fin 256) (e : Fin 1024) :
    val_main_v19 (F := Ideal) x2 x3 (ix3 b k e) = K (sl3 x2 b) (sl2 x3 b) k e := by
  rw [val_main_v19_apply, val_main_v18_apply, val_main_v17_apply]
  have h : idx_main_v17 (idx_main_v18 (ix3 b k e)) = ix2 b k :=
    funext fun d => Fin.ext (by match d with | ⟨0, _⟩ => rfl | ⟨1, _⟩ => rfl)
  rw [h]
  rfl

/-- The additive answer mask at example `b`. -/
theorem ref_mai (b : Fin 128) (a : Fin 256) :
    val_main_v9 (F := Ideal) x1 (ix2 b a) = mai (sl2 x1 b) a := by
  rw [val_main_v9_apply, val_main_v7_apply, val_main_v6_apply, val_main_v8_apply]
  rfl

/-- The additive key mask at example `b`. -/
theorem ref_mki (b : Fin 128) (k : Fin 256) :
    val_main_v13 (F := Ideal) x3 (ix2 b k) = mki (sl2 x3 b) k := by
  rw [val_main_v13_apply, val_main_v11_apply, val_main_v10_apply, val_main_v12_apply]
  rfl

/-- The scores at example `b`: the contraction over the features of the two masked sequences. -/
theorem ref_Z (b : Fin 128) (a k : Fin 256) :
    val_main_v20 (F := Ideal) x0 x1 x2 x3 (ix3 b a k) = Z (sl3 x0 b) (sl3 x2 b) (sl2 x1 b) (sl2 x3 b) a k := by
  rw [val_main_v20_apply]
  refine Finset.sum_congr rfl fun e _ => ?_
  have hl : lidx_main_v20 (ix3 b a k) e = ix3 b a e :=
    funext fun d => Fin.ext (by match d with | ⟨0, _⟩ => rfl | ⟨1, _⟩ => rfl | ⟨2, _⟩ => rfl)
  have hr : ridx_main_v20 (ix3 b a k) e = ix3 b k e :=
    funext fun d => Fin.ext (by match d with | ⟨0, _⟩ => rfl | ⟨1, _⟩ => rfl | ⟨2, _⟩ => rfl)
  rw [hl, hr, ref_A, ref_K]

end Cert.ReferenceIdeal.RefValue

end
-- ==== Proof.RefSoftmax.lean ====
/-
  The reference's two softmaxes, read at one example of the batch.

  The scores of example `b` plus the additive key mask are the specification's `P`; the maximum of each row of `P`
  (a fold of `max` from −∞ over the keys, then once more against −∞) is `mP`; the exponentials of the shifted row are
  `EP`, and each divided by the row's sum is the softmax along the keys `SK`. The same along the answers, with the
  additive answer mask and every statistic taken over a column: `Q`, `mQ`, `EQ`, `SA`. The transposed key softmax at
  (b, k, a) is `SK` at (a, k). The last three statements put the scores and the two softmaxes as whole arrays.
-/
import proofs.«169121_j9311489098350_1_alg».proof.Proof.RefBase
import proofs.«169121_j9311489098350_1_alg».proof.Proof.LibMidAxisRows
import proofs.«169121_j9311489098350_1_alg».proof.Proof.LibLastAxisRows

noncomputable section

namespace Cert.ReferenceIdeal.RefValue

open Cert.ReferenceIdeal Cert.ReferenceIdeal.Read Cert.ReferenceIdeal.Gen Idealize.ShloMosaic Idealize.ShloMosaic.ValueIdx CoAttn
  Idealize.ShloMosaic.MidAxisRows Idealize.ShloMosaic.LastAxisRows

variable (x0 x2 : (⟨S128x256x1024, .f32⟩ : BufTy).Contents (Elt Ideal)) (x1 x3 : (⟨S128x256, .f32⟩ : BufTy).Contents (Elt Ideal))

/-! ## The softmax along the keys -/

/-- The masked scores at example `b`: the scores plus the additive key mask of the column's key. -/
theorem ref_P (b : Fin 128) (a k : Fin 256) :
    val_main_v39 (F := Ideal) x0 x1 x2 x3 (ix3 b a k) = P (sl3 x0 b) (sl3 x2 b) (sl2 x1 b) (sl2 x3 b) a k := by
  rw [val_main_v39_apply, val_main_v38_apply, val_main_v37_apply]
  have h : idx_main_v37 (idx_main_v38 (ix3 b a k)) = ix2 b k :=
    funext fun d => Fin.ext (by match d with | ⟨0, _⟩ => rfl | ⟨1, _⟩ => rfl)
  rw [h, ref_Z, ref_mki]
  rfl

/-- The row maximum at example `b`: the fold of `max` from −∞ over the keys of row `a`, against −∞ once more. -/
theorem ref_mP (b : Fin 128) (a : Fin 256) :
    val_main_v42 (F := Ideal) x0 x1 x2 x3 (ix2 b a) = mP (sl3 x0 b) (sl3 x2 b) (sl2 x1 b) (sl2 x3 b) a := by
  rw [val_main_v42_apply, val_main_v41_apply, val_main_cst_11_apply]
  have hR : S128x256x256.Reduces [2] S128x256 := by decide
  have e : val_main_v40 (F := Ideal) x0 x1 x2 x3 (ix2 b a)
      = (Finset.univ : Finset (Fin 256)).fold max cBot (fun k => P (sl3 x0 b) (sl3 x2 b) (sl2 x1 b) (sl2 x3 b) a k) := by
    unfold val_main_v40
    rw [Host.reduce_eq_fold_single (FloatOps.maximumf (F := Ideal) (φ := .f32)) (val_main_v39 (F := Ideal) x0 x1 x2 x3) _ reducesTo_S128x256x256_S128x256_d2 hR h_S_]
    have hf : (val_main_v39 (F := Ideal) x0 x1 x2 x3 ∘ hR.lift (ix2 b a))
        = fun k : Fin 256 => P (sl3 x0 b) (sl3 x2 b) (sl2 x1 b) (sl2 x3 b) a k := funext fun k => by
      show val_main_v39 (F := Ideal) x0 x1 x2 x3 (hR.lift (ix2 b a) k) = _
      rw [lift_last hR b a k]
      exact ref_P x0 x2 x1 x3 b a ⟨k.val, k.isLt⟩
    exact congrArg (fun g => Finset.fold max cBot g (Finset.univ : Finset (Fin 256))) hf
  rw [e]
  rfl

/-- The exponential of the shifted masked score. -/
theorem ref_EP (b : Fin 128) (a k : Fin 256) :
    val_main_v46 (F := Ideal) x0 x1 x2 x3 (ix3 b a k) = EP (sl3 x0 b) (sl3 x2 b) (sl2 x1 b) (sl2 x3 b) a k := by
  rw [val_main_v46_apply, val_main_v45_apply, val_main_v44_apply, val_main_v43_apply]
  have h : idx_main_v43 (idx_main_v44 (ix3 b a k)) = ix2 b a :=
    funext fun d => Fin.ext (by match d with | ⟨0, _⟩ => rfl | ⟨1, _⟩ => rfl)
  rw [h, ref_P, ref_mP]
  rfl

/-- The softmax along the keys at example `b`. -/
theorem ref_SK (b : Fin 128) (a k : Fin 256) :
    val_main_v50 (F := Ideal) x0 x1 x2 x3 (ix3 b a k) = SK (sl3 x0 b) (sl3 x2 b) (sl2 x1 b) (sl2 x3 b) a k := by
  rw [val_main_v50_apply, val_main_v49_apply, val_main_v48_apply]
  have h : idx_main_v48 (idx_main_v49 (ix3 b a k)) = ix2 b a :=
    funext fun d => Fin.ext (by match d with | ⟨0, _⟩ => rfl | ⟨1, _⟩ => rfl)
  rw [h, val_main_v47_apply, ref_EP, val_main_cst_12_apply]
  have hs : ∑ k' : Fin 256, val_main_v46 (F := Ideal) x0 x1 x2 x3 (idx_main_v47 (ix2 b a) k')
      = ∑ k' : Fin 256, EP (sl3 x0 b) (sl3 x2 b) (sl2 x1 b) (sl2 x3 b) a k' :=
    Finset.sum_congr rfl fun k' _ => by
      have hi : idx_main_v47 (ix2 b a) k' = ix3 b a k' :=
        funext fun d => Fin.ext (by match d with | ⟨0, _⟩ => rfl | ⟨1, _⟩ => rfl | ⟨2, _⟩ => rfl)
      rw [hi, ref_EP]
  rw [hs]
  show Ideal.div _ (Ideal.ofBits .f32 0x00000000#32 + _) = _
  rw [Ideal.ofBits_zero_f32, zero_add]
  rfl

/-- The transposed key softmax: at (b, k, a) it is the softmax along the keys at (a, k). -/
theorem ref_SKT (b : Fin 128) (k a : Fin 256) :
    val_main_v107 (F := Ideal) x0 x1 x2 x3 (ix3 b k a) = SK (sl3 x0 b) (sl3 x2 b) (sl2 x1 b) (sl2 x3 b) a k := by
  rw [val_main_v107_apply]
  have h : idx_main_v107 (ix3 b k a) = ix3 b a k :=
    funext fun d => Fin.ext (by match d with | ⟨0, _⟩ => rfl | ⟨1, _⟩ => rfl | ⟨2, _⟩ => rfl)
  rw [h, ref_SK]

/-! ## The softmax along the answers -/

/-- The masked scores at example `b`: the scores plus the additive answer mask of the row's answer. -/
theorem ref_Q (b : Fin 128) (a k : Fin 256) :
    val_main_v57 (F := Ideal) x0 x1 x2 x3 (ix3 b a k) = Q (sl3 x0 b) (sl3 x2 b) (sl2 x1 b) (sl2 x3 b) a k := by
  rw [val_main_v57_apply, val_main_v56_apply, val_main_v55_apply]
  have h : idx_main_v55 (idx_main_v56 (ix3 b a k)) = ix2 b a :=
    funext fun d => Fin.ext (by match d with | ⟨0, _⟩ => rfl | ⟨1, _⟩ => rfl)
  rw [h, ref_Z, ref_mai]
  rfl

/-- The column maximum at example `b`: the fold of `max` from −∞ over the answers of column `k`, against −∞ once more. -/
theorem ref_mQ (b : Fin 128) (k : Fin 256) :
    val_main_v60 (F := Ideal) x0 x1 x2 x3 (ix2 b k) = mQ (sl3 x0 b) (sl3 x2 b) (sl2 x1 b) (sl2 x3 b) k := by
  rw [val_main_v60_apply, val_main_v59_apply, val_main_cst_14_apply]
  have hR : S128x256x256.Reduces [1] S128x256 := by decide
  have e : val_main_v58 (F := Ideal) x0 x1 x2 x3 (ix2 b k)
      = (Finset.univ : Finset (Fin 256)).fold max cBot (fun a => Q (sl3 x0 b) (sl3 x2 b) (sl2 x1 b) (sl2 x3 b) a k) := by
    unfold val_main_v58
    rw [Host.reduce_eq_fold_single (FloatOps.maximumf (F := Ideal) (φ := .f32)) (val_main_v57 (F := Ideal) x0 x1 x2 x3) _ reducesTo_S128x256x256_S128x256_d1 hR h_S_]
    have hf : (val_main_v57 (F := Ideal) x0 x1 x2 x3 ∘ hR.lift (ix2 b k))
        = fun a : Fin 256 => Q (sl3 x0 b) (sl3 x2 b) (sl2 x1 b) (sl2 x3 b) a k := funext fun a => by
      show val_main_v57 (F := Ideal) x0 x1 x2 x3 (hR.lift (ix2 b k) a) = _
      rw [lift_mid hR b k a]
      exact ref_Q x0 x2 x1 x3 b ⟨a.val, a.isLt⟩ k
    exact congrArg (fun g => Finset.fold max cBot g (Finset.univ : Finset (Fin 256))) hf
  rw [e]
  rfl

/-- The exponential of the shifted masked score. -/
theorem ref_EQ (b : Fin 128) (a k : Fin 256) :
    val_main_v64 (F := Ideal) x0 x1 x2 x3 (ix3 b a k) = EQ (sl3 x0 b) (sl3 x2 b) (sl2 x1 b) (sl2 x3 b) a k := by
  rw [val_main_v64_apply, val_main_v63_apply, val_main_v62_apply, val_main_v61_apply]
  have h : idx_main_v61 (idx_main_v62 (ix3 b a k)) = ix2 b k :=
    funext fun d => Fin.ext (by match d with | ⟨0, _⟩ => rfl | ⟨1, _⟩ => rfl)
  rw [h, ref_Q, ref_mQ]
  rfl

/-- The softmax along the answers at example `b`. -/
theorem ref_SA (b : Fin 128) (a k : Fin 256) :
    val_main_v68 (F := Ideal) x0 x1 x2 x3 (ix3 b a k) = SA (sl3 x0 b) (sl3 x2 b) (sl2 x1 b) (sl2 x3 b) a k := by
  rw [val_main_v68_apply, val_main_v67_apply, val_main_v66_apply]
  have h : idx_main_v66 (idx_main_v67 (ix3 b a k)) = ix2 b k :=
    funext fun d => Fin.ext (by match d with | ⟨0, _⟩ => rfl | ⟨1, _⟩ => rfl)
  rw [h, val_main_v65_apply, ref_EQ, val_main_cst_15_apply]
  have hs : ∑ a' : Fin 256, val_main_v64 (F := Ideal) x0 x1 x2 x3 (idx_main_v65 (ix2 b k) a')
      = ∑ a' : Fin 256, EQ (sl3 x0 b) (sl3 x2 b) (sl2 x1 b) (sl2 x3 b) a' k :=
    Finset.sum_congr rfl fun a' _ => by
      have hi : idx_main_v65 (ix2 b k) a' = ix3 b a' k :=
        funext fun d => Fin.ext (by match d with | ⟨0, _⟩ => rfl | ⟨1, _⟩ => rfl | ⟨2, _⟩ => rfl)
      rw [hi, ref_EQ]
  rw [hs]
  show Ideal.div _ (Ideal.ofBits .f32 0x00000000#32 + _) = _
  rw [Ideal.ofBits_zero_f32, zero_add]
  rfl

/-! ## The whole arrays -/

/-- The scores as a whole array. -/
theorem ref_gZ : val_main_v20 (F := Ideal) x0 x1 x2 x3 = gZ x0 x2 x1 x3 := by
  funext i
  obtain ⟨b, a, k, rfl⟩ : ∃ b a k, i = ix3 b a k := ⟨i 0, i 1, i 2, eq_ix3 i⟩
  exact ref_Z x0 x2 x1 x3 b a k

/-- The softmax along the answers as a whole array. -/
theorem ref_gSA : val_main_v68 (F := Ideal) x0 x1 x2 x3 = gSA x0 x2 x1 x3 := by
  funext i
  obtain ⟨b, a, k, rfl⟩ : ∃ b a k, i = ix3 b a k := ⟨i 0, i 1, i 2, eq_ix3 i⟩
  exact ref_SA x0 x2 x1 x3 b a k

/-- The transposed softmax along the keys as a whole array. -/
theorem ref_gSKT : val_main_v107 (F := Ideal) x0 x1 x2 x3 = gSKT x0 x2 x1 x3 := by
  funext i
  obtain ⟨b, k, a, rfl⟩ : ∃ b k a, i = ix3 b k a := ⟨i 0, i 1, i 2, eq_ix3 i⟩
  exact ref_SKT x0 x2 x1 x3 b k a

end Cert.ReferenceIdeal.RefValue

end
-- ==== Proof.RefGates.lean ====
/-
  The reference's cosine scores and its two gates, read at one example of the batch.

  With the masked sequences A, K of example b (RefBase): the floored norms ‖A a‖ = √(max (∑ e, A a e · A a e) ε) and
  ‖K k‖ likewise, put beside every entry of the score matrix and multiplied, are na a · nk k; the score divided by that
  product is the cosine score C a k. The gate of an answer token a is the logistic function of five times the maximum
  over the keys k of C a k + mki k; the gate of a key token k is that of five times the maximum over the answers a of
  C a k + mai a, which the reference takes along the last axis of the TRANSPOSED score array. The reference spells the
  logistic function out as 1 / (1 + exp (−x)) with the literal 1.0, which is the number 1. A maximum along an axis is the
  fold of max from the literal −∞ over that axis's coordinates. Last, each gate vector is given a unit middle axis.
-/
import proofs.«169121_j9311489098350_1_alg».proof.Proof.RefBase
import proofs.«169121_j9311489098350_1_alg».proof.Proof.LibMidAxisRows

noncomputable section

namespace Cert.ReferenceIdeal.RefValue

open Cert.ReferenceIdeal Cert.ReferenceIdeal.Gen Cert.ReferenceIdeal.Read Idealize.ShloMosaic Idealize.ShloMosaic.ValueIdx CoAttn

variable (x0 x2 : (⟨S128x256x1024, .f32⟩ : BufTy).Contents (Elt Ideal)) (x1 x3 : (⟨S128x256, .f32⟩ : BufTy).Contents (Elt Ideal))

/-- The literal 1.0 is the number 1. -/
theorem ofBits_one_f32 : Ideal.ofBits .f32 0x3F800000#32 = (1 : EReal) := by
  simp [Ideal.ofBits, Ideal.ieee, -EReal.coe_mul]; norm_num

/-- The reduced index (p, q) of a [128, 256, 256] array with coordinate k put back on the last axis is (p, q, k). -/
theorem lift_last_256 (h : S128x256x256.Reduces [2] S128x256) (p : Fin 128) (q : Fin 256)
    (k : Fin (S128x256x256.size 2)) : h.lift (ix2 p q) k = ix3 p q (⟨k.val, k.isLt⟩ : Fin 256) := by
  funext d; apply Fin.ext
  fin_cases d <;> rfl

/-- A maximum along the last axis of a [128, 256, 256] array, at (p, q): the fold of max, from the initial value, over
    the entries (p, q, k), k running. -/
theorem reduce_max_last (y : S128x256x256.Idx → Ideal .f32) (init : S_.Idx → Ideal .f32) (p : Fin 128) (q : Fin 256) :
    Host.reduce FloatOps.maximumf y init reducesTo_S128x256x256_S128x256_d2 h_S_ (ix2 p q)
      = (Finset.univ : Finset (Fin 256)).fold max (init (Shape.Idx.first h_S_)) (fun k => y (ix3 p q k)) := by
  have h : S128x256x256.Reduces [2] S128x256 := by decide
  rw [Host.reduce_eq_fold_single FloatOps.maximumf y init reducesTo_S128x256x256_S128x256_d2 h h_S_]
  have hf : (y ∘ h.lift (ix2 p q)) = fun k : Fin 256 => y (ix3 p q k) :=
    funext fun k => congrArg y (lift_last_256 h p q k)
  exact congrArg (fun f => Finset.fold max (init (Shape.Idx.first h_S_)) f (Finset.univ : Finset (Fin 256))) hf

/-- The floored norm of the masked answer token a of example b. -/
theorem ref_na (b : Fin 128) (a : Fin 256) :
    val_main_v25 (F := Ideal) x0 x1 (ix2 b a) = na (sl3 x0 b) (sl2 x1 b) a := by
  rw [val_main_v25_apply, val_main_v24_apply, val_main_v22_apply, val_main_v23_apply, val_main_cst_6_apply,
    val_main_cst_7_apply]
  have hs : ∀ e : Fin 1024, val_main_v21 (F := Ideal) x0 x1 (idx_main_v22 (ix2 b a) e)
      = A (sl3 x0 b) (sl2 x1 b) a e * A (sl3 x0 b) (sl2 x1 b) a e := fun e => by
    have hi : idx_main_v22 (ix2 b a) e = ix3 b a e :=
      funext fun d => Fin.ext (by match d with | ⟨0, _⟩ => rfl | ⟨1, _⟩ => rfl | ⟨2, _⟩ => rfl)
    rw [hi, val_main_v21_apply, ref_A]
    rfl
  rw [Finset.sum_congr rfl fun e _ => hs e]
  simp only [Ideal.ofBits_def]
  rw [Ideal.ofBits_zero_f32, zero_add]
  rfl

/-- The floored norm of the masked key token k of example b. -/
theorem ref_nk (b : Fin 128) (k : Fin 256) :
    val_main_v30 (F := Ideal) x2 x3 (ix2 b k) = nk (sl3 x2 b) (sl2 x3 b) k := by
  rw [val_main_v30_apply, val_main_v29_apply, val_main_v27_apply, val_main_v28_apply, val_main_cst_8_apply,
    val_main_cst_9_apply]
  have hs : ∀ e : Fin 1024, val_main_v26 (F := Ideal) x2 x3 (idx_main_v27 (ix2 b k) e)
      = K (sl3 x2 b) (sl2 x3 b) k e * K (sl3 x2 b) (sl2 x3 b) k e := fun e => by
    have hi : idx_main_v27 (ix2 b k) e = ix3 b k e :=
      funext fun d => Fin.ext (by match d with | ⟨0, _⟩ => rfl | ⟨1, _⟩ => rfl | ⟨2, _⟩ => rfl)
    rw [hi, val_main_v26_apply, ref_K]
    rfl
  rw [Finset.sum_congr rfl fun e _ => hs e]
  simp only [Ideal.ofBits_def]
  rw [Ideal.ofBits_zero_f32, zero_add]
  rfl

/-- The two norms broadcast to a matrix and multiplied: at (a, k) of example b, ‖A a‖ · ‖K k‖. -/
theorem ref_nn (b : Fin 128) (a k : Fin 256) :
    val_main_v35 (F := Ideal) x0 x1 x2 x3 (ix3 b a k) = na (sl3 x0 b) (sl2 x1 b) a * nk (sl3 x2 b) (sl2 x3 b) k := by
  rw [val_main_v35_apply, val_main_v33_apply, val_main_v31_apply, val_main_v34_apply, val_main_v32_apply]
  have h1 : idx_main_v31 (idx_main_v33 (ix3 b a k)) = ix2 b a :=
    funext fun d => Fin.ext (by match d with | ⟨0, _⟩ => rfl | ⟨1, _⟩ => rfl)
  have h2 : idx_main_v32 (idx_main_v34 (ix3 b a k)) = ix2 b k :=
    funext fun d => Fin.ext (by match d with | ⟨0, _⟩ => rfl | ⟨1, _⟩ => rfl)
  rw [h1, h2, ref_na, ref_nk]
  rfl

/-- The cosine scores at example b. -/
theorem ref_C (b : Fin 128) (a k : Fin 256) :
    val_main_v36 (F := Ideal) x0 x1 x2 x3 (ix3 b a k) = C (sl3 x0 b) (sl3 x2 b) (sl2 x1 b) (sl2 x3 b) a k := by
  rw [val_main_v36_apply, ref_Z, ref_nn]
  rfl

/-- The maximum over the keys of the cosine score plus the key mask, at answer token a of example b. -/
theorem ref_maxK (b : Fin 128) (a : Fin 256) :
    val_main_v76 (F := Ideal) x0 x1 x2 x3 (ix2 b a)
      = (Finset.univ : Finset (Fin 256)).fold max cBot
          (fun k => C (sl3 x0 b) (sl3 x2 b) (sl2 x1 b) (sl2 x3 b) a k + mki (sl2 x3 b) k) := by
  unfold val_main_v76
  rw [reduce_max_last, val_main_cst_16_apply]
  refine congrArg (fun g => Finset.fold max cBot g (Finset.univ : Finset (Fin 256))) (funext fun k => ?_)
  have hi : idx_main_v73 (idx_main_v74 (ix3 b a k)) = ix2 b k :=
    funext fun d => Fin.ext (by match d with | ⟨0, _⟩ => rfl | ⟨1, _⟩ => rfl)
  rw [val_main_v75_apply, ref_C, val_main_v74_apply, val_main_v73_apply, hi, ref_mki]
  rfl

/-- The gate of answer token a of example b. -/
theorem ref_bk (b : Fin 128) (a : Fin 256) :
    val_main_v84 (F := Ideal) x0 x1 x2 x3 (ix2 b a) = bk (sl3 x0 b) (sl3 x2 b) (sl2 x1 b) (sl2 x3 b) a := by
  rw [val_main_v84_apply, val_main_v83_apply, val_main_cst_19_apply, val_main_v82_apply, val_main_v81_apply,
    val_main_cst_18_apply, val_main_v80_apply, val_main_v79_apply, val_main_v78_apply, val_main_v77_apply,
    val_main_cst_17_apply, ref_maxK]
  simp only [Ideal.ofBits_def]
  rw [ofBits_one_f32]
  rfl

/-- The maximum over the answers of the cosine score plus the answer mask, at key token k of example b: the reference
    takes it along the last axis of the transposed score array. -/
theorem ref_maxA (b : Fin 128) (k : Fin 256) :
    val_main_v89 (F := Ideal) x0 x1 x2 x3 (ix2 b k)
      = (Finset.univ : Finset (Fin 256)).fold max cBot
          (fun a => C (sl3 x0 b) (sl3 x2 b) (sl2 x1 b) (sl2 x3 b) a k + mai (sl2 x1 b) a) := by
  unfold val_main_v89
  rw [reduce_max_last, val_main_cst_20_apply]
  refine congrArg (fun g => Finset.fold max cBot g (Finset.univ : Finset (Fin 256))) (funext fun a => ?_)
  have ht : idx_main_v85 (ix3 b k a) = ix3 b a k :=
    funext fun d => Fin.ext (by match d with | ⟨0, _⟩ => rfl | ⟨1, _⟩ => rfl | ⟨2, _⟩ => rfl)
  have hi : idx_main_v86 (idx_main_v87 (ix3 b k a)) = ix2 b a :=
    funext fun d => Fin.ext (by match d with | ⟨0, _⟩ => rfl | ⟨1, _⟩ => rfl)
  rw [val_main_v88_apply, val_main_v85_apply, ht, ref_C, val_main_v87_apply, val_main_v86_apply, hi, ref_mai]
  rfl

/-- The gate of key token k of example b. -/
theorem ref_ba (b : Fin 128) (k : Fin 256) :
    val_main_v97 (F := Ideal) x0 x1 x2 x3 (ix2 b k) = ba (sl3 x0 b) (sl3 x2 b) (sl2 x1 b) (sl2 x3 b) k := by
  rw [val_main_v97_apply, val_main_v96_apply, val_main_cst_23_apply, val_main_v95_apply, val_main_v94_apply,
    val_main_cst_22_apply, val_main_v93_apply, val_main_v92_apply, val_main_v91_apply, val_main_v90_apply,
    val_main_cst_21_apply, ref_maxA]
  simp only [Ideal.ofBits_def]
  rw [ofBits_one_f32]
  rfl

/-- The key gates with a unit middle axis. -/
theorem ref_Ba3 (b : Fin 128) (k : Fin 256) :
    val_main_v108 (F := Ideal) x0 x1 x2 x3 (ix3 b (0 : Fin 1) k) = ba (sl3 x0 b) (sl3 x2 b) (sl2 x1 b) (sl2 x3 b) k := by
  have hi : idx_main_v108 (ix3 b (0 : Fin 1) k) = ix2 b k :=
    funext fun d => Fin.ext (by match d with | ⟨0, _⟩ => rfl | ⟨1, _⟩ => rfl)
  rw [val_main_v108_apply, hi, ref_ba]

/-- The answer gates with a unit middle axis. -/
theorem ref_Bk3 (b : Fin 128) (a : Fin 256) :
    val_main_v109 (F := Ideal) x0 x1 x2 x3 (ix3 b (0 : Fin 1) a) = bk (sl3 x0 b) (sl3 x2 b) (sl2 x1 b) (sl2 x3 b) a := by
  have hi : idx_main_v109 (ix3 b (0 : Fin 1) a) = ix2 b a :=
    funext fun d => Fin.ext (by match d with | ⟨0, _⟩ => rfl | ⟨1, _⟩ => rfl)
  rw [val_main_v109_apply, hi, ref_bk]

/-- The key gates as a whole array. -/
theorem ref_gBa : val_main_v108 (F := Ideal) x0 x1 x2 x3 = gBa x0 x2 x1 x3 := by
  funext i
  obtain ⟨b, z, k, rfl⟩ : ∃ (b : Fin 128) (z : Fin 1) (k : Fin 256), i = ix3 b z k := ⟨i 0, i 1, i 2, eq_ix3 i⟩
  obtain rfl : z = 0 := Subsingleton.elim z 0
  exact ref_Ba3 x0 x2 x1 x3 b k

/-- The answer gates as a whole array. -/
theorem ref_gBk : val_main_v109 (F := Ideal) x0 x1 x2 x3 = gBk x0 x2 x1 x3 := by
  funext i
  obtain ⟨b, z, a, rfl⟩ : ∃ (b : Fin 128) (z : Fin 1) (a : Fin 256), i = ix3 b z a := ⟨i 0, i 1, i 2, eq_ix3 i⟩
  obtain rfl : z = 0 := Subsingleton.elim z 0
  exact ref_Bk3 x0 x2 x1 x3 b a

end Cert.ReferenceIdeal.RefValue

end
-- ==== Proof.RefPooled.lean ====
/-
  The reference's attended, masked and gated sequences and their pooled maxima, read at one example of the batch.

  The key softmax of example `b` contracted with the masked keys over the keys, times the answer mask and the key
  gate of its row, is the specification's `V`; the answer softmax contracted with the masked answers over the answers,
  times the key mask and the answer gate of its column, is `U`. Their maxima over the tokens (folds of `max` from −∞)
  are `v` and `u`, and the feature vector is `u` followed by `v`. The last statement puts it as a whole array.
-/
import proofs.«169121_j9311489098350_1_alg».proof.Proof.RefSoftmax
import proofs.«169121_j9311489098350_1_alg».proof.Proof.RefGates

noncomputable section

namespace Cert.ReferenceIdeal.RefValue

open Cert.ReferenceIdeal Cert.ReferenceIdeal.Read Cert.ReferenceIdeal.Gen Idealize.ShloMosaic Idealize.ShloMosaic.ValueIdx CoAttn
  Idealize.ShloMosaic.MidAxisRows

variable (x0 x2 : (⟨S128x256x1024, .f32⟩ : BufTy).Contents (Elt Ideal)) (x1 x3 : (⟨S128x256, .f32⟩ : BufTy).Contents (Elt Ideal))

/-- The attended keys at example `b`, masked by the answer mask and gated by the key gate of the answer. -/
theorem ref_V (b : Fin 128) (a : Fin 256) (e : Fin 1024) :
    val_main_v100 (F := Ideal) x0 x1 x2 x3 (ix3 b a e) = V (sl3 x0 b) (sl3 x2 b) (sl2 x1 b) (sl2 x3 b) a e := by
  rw [val_main_v100_apply, val_main_v99_apply, val_main_v98_apply, val_main_v54_apply, val_main_v53_apply,
    val_main_v52_apply, val_main_v51_apply]
  have h1 : idx_main_v98 (idx_main_v99 (ix3 b a e)) = ix2 b a :=
    funext fun d => Fin.ext (by match d with | ⟨0, _⟩ => rfl | ⟨1, _⟩ => rfl)
  have h2 : idx_main_v52 (idx_main_v53 (ix3 b a e)) = ix2 b a :=
    funext fun d => Fin.ext (by match d with | ⟨0, _⟩ => rfl | ⟨1, _⟩ => rfl)
  have hs : ∑ k : Fin 256, val_main_v50 (F := Ideal) x0 x1 x2 x3 (lidx_main_v51 (ix3 b a e) k)
        * val_main_v19 (F := Ideal) x2 x3 (ridx_main_v51 (ix3 b a e) k)
      = ∑ k : Fin 256, SK (sl3 x0 b) (sl3 x2 b) (sl2 x1 b) (sl2 x3 b) a k * K (sl3 x2 b) (sl2 x3 b) k e :=
    Finset.sum_congr rfl fun k _ => by
      have hl : lidx_main_v51 (ix3 b a e) k = ix3 b a k :=
        funext fun d => Fin.ext (by match d with | ⟨0, _⟩ => rfl | ⟨1, _⟩ => rfl | ⟨2, _⟩ => rfl)
      have hr : ridx_main_v51 (ix3 b a e) k = ix3 b k e :=
        funext fun d => Fin.ext (by match d with | ⟨0, _⟩ => rfl | ⟨1, _⟩ => rfl | ⟨2, _⟩ => rfl)
      rw [hl, hr, ref_SK, ref_K]
  rw [h1, h2, ref_bk, hs]
  rfl

/-- The attended answers at example `b`, masked by the key mask and gated by the answer gate of the key. -/
theorem ref_U (b : Fin 128) (k : Fin 256) (e : Fin 1024) :
    val_main_v103 (F := Ideal) x0 x1 x2 x3 (ix3 b k e) = U (sl3 x0 b) (sl3 x2 b) (sl2 x1 b) (sl2 x3 b) k e := by
  rw [val_main_v103_apply, val_main_v102_apply, val_main_v101_apply, val_main_v72_apply, val_main_v71_apply,
    val_main_v70_apply, val_main_v69_apply]
  have h1 : idx_main_v101 (idx_main_v102 (ix3 b k e)) = ix2 b k :=
    funext fun d => Fin.ext (by match d with | ⟨0, _⟩ => rfl | ⟨1, _⟩ => rfl)
  have h2 : idx_main_v70 (idx_main_v71 (ix3 b k e)) = ix2 b k :=
    funext fun d => Fin.ext (by match d with | ⟨0, _⟩ => rfl | ⟨1, _⟩ => rfl)
  have hs : ∑ a : Fin 256, val_main_v68 (F := Ideal) x0 x1 x2 x3 (lidx_main_v69 (ix3 b k e) a)
        * val_main_v16 (F := Ideal) x0 x1 (ridx_main_v69 (ix3 b k e) a)
      = ∑ a : Fin 256, SA (sl3 x0 b) (sl3 x2 b) (sl2 x1 b) (sl2 x3 b) a k * A (sl3 x0 b) (sl2 x1 b) a e :=
    Finset.sum_congr rfl fun a _ => by
      have hl : lidx_main_v69 (ix3 b k e) a = ix3 b a k :=
        funext fun d => Fin.ext (by match d with | ⟨0, _⟩ => rfl | ⟨1, _⟩ => rfl | ⟨2, _⟩ => rfl)
      have hr : ridx_main_v69 (ix3 b k e) a = ix3 b a e :=
        funext fun d => Fin.ext (by match d with | ⟨0, _⟩ => rfl | ⟨1, _⟩ => rfl | ⟨2, _⟩ => rfl)
      rw [hl, hr, ref_SA, ref_A]
  rw [h1, h2, ref_ba, hs]
  rfl

/-- The maximum over the answers of the attended keys, feature by feature: the fold of `max` from −∞. -/
theorem ref_v (b : Fin 128) (e : Fin 1024) :
    val_main_v104 (F := Ideal) x0 x1 x2 x3 (ix2 b e) = v (sl3 x0 b) (sl3 x2 b) (sl2 x1 b) (sl2 x3 b) e := by
  have hR : S128x256x1024.Reduces [1] S128x1024 := by decide
  unfold val_main_v104
  rw [Host.reduce_eq_fold_single (FloatOps.maximumf (F := Ideal) (φ := .f32)) (val_main_v100 (F := Ideal) x0 x1 x2 x3) _
    reducesTo_S128x256x1024_S128x1024_d1 hR h_S_]
  have hf : (val_main_v100 (F := Ideal) x0 x1 x2 x3 ∘ hR.lift (ix2 b e))
      = fun a : Fin 256 => V (sl3 x0 b) (sl3 x2 b) (sl2 x1 b) (sl2 x3 b) a e := funext fun a => by
    show val_main_v100 (F := Ideal) x0 x1 x2 x3 (hR.lift (ix2 b e) a) = _
    rw [lift_mid hR b e a]
    exact ref_V x0 x2 x1 x3 b ⟨a.val, a.isLt⟩ e
  exact congrArg (fun g => Finset.fold max cBot g (Finset.univ : Finset (Fin 256))) hf

/-- The maximum over the keys of the attended answers, feature by feature: the fold of `max` from −∞. -/
theorem ref_u (b : Fin 128) (e : Fin 1024) :
    val_main_v105 (F := Ideal) x0 x1 x2 x3 (ix2 b e) = u (sl3 x0 b) (sl3 x2 b) (sl2 x1 b) (sl2 x3 b) e := by
  have hR : S128x256x1024.Reduces [1] S128x1024 := by decide
  unfold val_main_v105
  rw [Host.reduce_eq_fold_single (FloatOps.maximumf (F := Ideal) (φ := .f32)) (val_main_v103 (F := Ideal) x0 x1 x2 x3) _
    reducesTo_S128x256x1024_S128x1024_d1 hR h_S_]
  have hf : (val_main_v103 (F := Ideal) x0 x1 x2 x3 ∘ hR.lift (ix2 b e))
      = fun k : Fin 256 => U (sl3 x0 b) (sl3 x2 b) (sl2 x1 b) (sl2 x3 b) k e := funext fun k => by
    show val_main_v103 (F := Ideal) x0 x1 x2 x3 (hR.lift (ix2 b e) k) = _
    rw [lift_mid hR b e k]
    exact ref_U x0 x2 x1 x3 b ⟨k.val, k.isLt⟩ e
  exact congrArg (fun g => Finset.fold max cBot g (Finset.univ : Finset (Fin 256))) hf

/-- The feature vector at example `b`: the pooled attended answers, then the pooled attended keys. -/
theorem ref_F (b : Fin 128) (j : Fin 2048) :
    val_main_v106 (F := Ideal) x0 x1 x2 x3 (ix2 b j) = f (sl3 x0 b) (sl3 x2 b) (sl2 x1 b) (sl2 x3 b) j := by
  unfold val_main_v106
  refine (concat_axis1_of_eq (a := 128) (b1 := 1024) (b2 := 1024) (n := 2048) rfl (val_main_v105 (F := Ideal) x0 x1 x2 x3)
    (val_main_v104 (F := Ideal) x0 x1 x2 x3) concatenates_S128x1024_S128x1024_S128x2048_d1 b j).trans ?_
  unfold f
  by_cases hj : j.val < 1024
  · rw [dif_pos hj, dif_pos hj, ref_u]
  · rw [dif_neg hj, dif_neg hj, ref_v]

/-- The feature vectors as a whole array. -/
theorem ref_gF : val_main_v106 (F := Ideal) x0 x1 x2 x3 = gF x0 x2 x1 x3 := by
  funext i
  obtain ⟨b, j, rfl⟩ : ∃ b j, i = ix2 b j := ⟨i 0, i 1, eq_ix2 i⟩
  exact ref_F x0 x2 x1 x3 b j

end Cert.ReferenceIdeal.RefValue

end
-- ==== Proof.RefRun.lean ====
/-
  The reference's run, read: each of its six results is the specification's whole-array function of the argument arrays.
  The run gives each result as the composed term of the program's operations; that term is the last stage of the operation-by-
  operation reading, and each stage chain was read at an index as the specification of one example.
-/
import proofs.«169121_j9311489098350_1_alg».proof.Proof.RunP
import proofs.«169121_j9311489098350_1_alg».proof.Proof.RefSoftmax
import proofs.«169121_j9311489098350_1_alg».proof.Proof.RefGates
import proofs.«169121_j9311489098350_1_alg».proof.Proof.RefPooled

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.StableHlo Idealize.ShloMosaic.ValueIdx CoAttn

variable (m : (ℓ : Loc nD τ sig) → Buf (Elt Ideal) ℓ) (ρ : Dev nD → PrngReg)

/-- The four argument arrays on core c: the answers, the keys, and their masks. -/
abbrev rAns (c : Dev nD) : S128x256x1024.Idx → EReal := m ((c.tc : Thread nD τ).loc main_arg0)
abbrev rMa (c : Dev nD) : S128x256.Idx → EReal := m ((c.tc : Thread nD τ).loc main_arg1)
abbrev rKey (c : Dev nD) : S128x256x1024.Idx → EReal := m ((c.tc : Thread nD τ).loc main_arg2)
abbrev rMk (c : Dev nD) : S128x256.Idx → EReal := m ((c.tc : Thread nD τ).loc main_arg3)

/-- The run's named term for the joined features is the last stage of the reading. -/
theorem res_F_eq (c : Dev nD) :
    Cert.ReferenceIdeal.Value.res_main_v106 m c = val_main_v106 (F := Ideal) (rAns m c) (rMa m c) (rKey m c) (rMk m c) := by
  unfold Cert.ReferenceIdeal.Value.res_main_v106; rfl

/-- The run's named term for the softmax along the answers is the last stage of the reading. -/
theorem res_SA_eq (c : Dev nD) :
    Cert.ReferenceIdeal.Value.res_main_v68 m c = val_main_v68 (F := Ideal) (rAns m c) (rMa m c) (rKey m c) (rMk m c) := by
  unfold Cert.ReferenceIdeal.Value.res_main_v68; rfl

/-- The run's named term for the transposed softmax along the keys is the last stage of the reading. -/
theorem res_SKT_eq (c : Dev nD) :
    Cert.ReferenceIdeal.Value.res_main_v107 m c = val_main_v107 (F := Ideal) (rAns m c) (rMa m c) (rKey m c) (rMk m c) := by
  unfold Cert.ReferenceIdeal.Value.res_main_v107; rfl

set_option maxHeartbeats 4000000 in
/-- Every weakly fair execution of the reference terminates with the six results at the specification's functions of the
    argument arrays, and the arguments unchanged. -/
theorem run : θ_run defs (onTc (τ := τ) (main (F := Ideal))) ⟨m, fun _ => 0, ρ⟩ fun r => ∀ c : Dev nD,
      r.2.mem ((c.tc : Thread nD τ).loc main_v106) = gF (rAns m c) (rKey m c) (rMa m c) (rMk m c)
      ∧ r.2.mem ((c.tc : Thread nD τ).loc main_v20) = gZ (rAns m c) (rKey m c) (rMa m c) (rMk m c)
      ∧ r.2.mem ((c.tc : Thread nD τ).loc main_v68) = gSA (rAns m c) (rKey m c) (rMa m c) (rMk m c)
      ∧ r.2.mem ((c.tc : Thread nD τ).loc main_v107) = gSKT (rAns m c) (rKey m c) (rMa m c) (rMk m c)
      ∧ r.2.mem ((c.tc : Thread nD τ).loc main_v108) = gBa (rAns m c) (rKey m c) (rMa m c) (rMk m c)
      ∧ r.2.mem ((c.tc : Thread nD τ).loc main_v109) = gBk (rAns m c) (rKey m c) (rMa m c) (rMk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  by
  refine (θ_run defs _ _).mono (fun _ h c => ?_) (Cert.ReferenceIdeal.Value.run (F := Ideal) m ρ)
  obtain ⟨h0, h1, h2, h3, h4, h5, hargs⟩ := h c
  refine ⟨h0.trans ?_, h1.trans ?_, h2.trans ?_, h3.trans ?_, h4.trans ?_, h5.trans ?_, hargs⟩
  · exact (res_F_eq m c).trans (ref_gF (rAns m c) (rKey m c) (rMa m c) (rMk m c))
  · exact (val_main_v20_eq (F := Ideal) (rAns m c) (rMa m c) (rKey m c) (rMk m c)).trans (ref_gZ (rAns m c) (rKey m c) (rMa m c) (rMk m c))
  · exact (res_SA_eq m c).trans (ref_gSA (rAns m c) (rKey m c) (rMa m c) (rMk m c))
  · exact (res_SKT_eq m c).trans (ref_gSKT (rAns m c) (rKey m c) (rMa m c) (rMk m c))
  · exact (val_main_v108_eq (F := Ideal) (rAns m c) (rMa m c) (rKey m c) (rMk m c)).trans (ref_gBa (rAns m c) (rKey m c) (rMa m c) (rMk m c))
  · exact (val_main_v109_eq (F := Ideal) (rAns m c) (rMa m c) (rKey m c) (rMk m c)).trans (ref_gBk (rAns m c) (rKey m c) (rMa m c) (rMk m c))

end Cert.ReferenceIdeal.RefValue

end
-- ==== Proof.lean ====
/-
  A co-attention block over a batch of 128 examples — masked answer and key sequences, their score matrix, a softmax of the
  scores along the keys and one along the answers, the attended sequences gated by sigmoids of the best masked cosine score and
  max-pooled over their tokens — computed by a kernel that takes two examples per grid point, against the same computation written
  over the whole batch. Over the extended reals the two programs compute, example by example, the same functions (Proof/Spec.lean):
  the kernel's narrowing of its matrix operands to a shorter float format is the identity there, its matrix products into a zero
  accumulator and the reference's contractions are the same sums, a reduction along an axis is the same sum or the same fold of
  max whatever the layout it is taken in (the reference takes one maximum over the transposed cosine scores), and the kernel's one
  sigmoid operation is the reference's 1 / (1 + exp (−x)). No law of arithmetic beyond these readings is used, so the inputs'
  finiteness is never opened.
  * The kernel side: the body's payloads read at an index (Proof/KernelMatmul.lean, Proof/KernelBody.lean), the blocks read as
    examples of the arguments and the tiling of the output arrays (Proof/BlocksGeom.lean), the run (Proof/KernelValue.lean).
  * The reference side: its operations read at an index (Proof/RefBase.lean, RefSoftmax.lean, RefGates.lean, RefPooled.lean),
    the run (Proof/RefRun.lean over Proof/RunP.lean and Proof/ReadP.lean).
  The three frames are the generated frame certificates and the reference's run with its results dropped; no operation was
  rewritten by the idealization, so there is nothing to preserve.
-/
import proofs.«169121_j9311489098350_1_alg».proof.Defs
import proofs.«169121_j9311489098350_1_alg».proof.Proof.Gen.Kernel
import proofs.«169121_j9311489098350_1_alg».proof.Proof.Gen.Kernel.Skeleton
import proofs.«169121_j9311489098350_1_alg».proof.Proof.Gen.Kernel.Launch
import proofs.«169121_j9311489098350_1_alg».proof.Proof.Gen.Kernel.Points
import proofs.«169121_j9311489098350_1_alg».proof.Proof.Gen.Kernel.Frame
import proofs.«169121_j9311489098350_1_alg».proof.Proof.Gen.KernelIdeal
import proofs.«169121_j9311489098350_1_alg».proof.Proof.Gen.KernelIdeal.Skeleton
import proofs.«169121_j9311489098350_1_alg».proof.Proof.Gen.KernelIdeal.Launch
import proofs.«169121_j9311489098350_1_alg».proof.Proof.Gen.KernelIdeal.Points
import proofs.«169121_j9311489098350_1_alg».proof.Proof.Gen.KernelIdeal.Frame
import proofs.«169121_j9311489098350_1_alg».proof.Proof.Gen.ReferenceIdeal
import proofs.«169121_j9311489098350_1_alg».proof.Proof.Gen.Pre_finite_inputs
import proofs.«169121_j9311489098350_1_alg».proof.Proof.KernelValue
import proofs.«169121_j9311489098350_1_alg».proof.Proof.RefRun
import Idealize.ShloMosaic.Adequacy
import Idealize.ShloMosaic.Init

noncomputable section

namespace Cert.Proof

open Idealize.ShloMosaic Idealize.SL.Sem

/-- The word-level kernel runs and keeps its arguments: the generated frame certificate. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference runs and keeps its arguments: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2.2)
    (Cert.ReferenceIdeal.Value.run (F := Ideal) m ρ)

/-- From memories agreeing on the four arguments both programs end with each result at the specification's function of those
    arguments: the same six arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, _, _, _, Cert.KernelIdeal.KValue.run m ρ, ?_⟩
  refine (θ_run Cert.ReferenceIdeal.defs _ _).mono (fun _ h c => ?_) (Cert.ReferenceIdeal.RefValue.run m' ρ')
  obtain ⟨h0, h1, h2, h3, h4, h5, hargs⟩ := h c
  obtain ⟨e0, e1, e2, e3⟩ := hagree c
  have ea : Cert.ReferenceIdeal.RefValue.rAns m' c = Cert.KernelIdeal.KValue.aAns m c := e0
  have em : Cert.ReferenceIdeal.RefValue.rMa m' c = Cert.KernelIdeal.KValue.aMa m c := e1
  have ek : Cert.ReferenceIdeal.RefValue.rKey m' c = Cert.KernelIdeal.KValue.aKey m c := e2
  have en : Cert.ReferenceIdeal.RefValue.rMk m' c = Cert.KernelIdeal.KValue.aMk m c := e3
  rw [ea, ek, em, en] at h0 h1 h2 h3 h4 h5
  exact ⟨h0, h1, h2, h3, h4, h5, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
